-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S_ : Shape := ⟨0, ![]⟩

class Facts : Prop where
  bcast_S_S1048576x5 : S_.BroadcastsInDim S1048576x5 (![] : Fin 0 → Fin S1048576x5.rank)
  reducesTo_S1048576x5_S_d0_1 : S1048576x5.ReducesTo [0, 1] S_
  h_S_ : 0 < S_.numel
  bcast_S_S1x17 : S_.BroadcastsInDim S1x17 (![] : Fin 0 → Fin S1x17.rank)
  reducesTo_S1x17_S_d0_1 : S1x17.ReducesTo [0, 1] S_
  bcast_S_S17 : S_.BroadcastsInDim S17 (![] : Fin 0 → Fin S17.rank)
  reducesTo_S17_S_d0 : S17.ReducesTo [0] S_
  bcast_S_S34x17 : S_.BroadcastsInDim S34x17 (![] : Fin 0 → Fin S34x17.rank)
  reducesTo_S34x17_S_d0_1 : S34x17.ReducesTo [0, 1] S_
  bcast_S_S68x17 : S_.BroadcastsInDim S68x17 (![] : Fin 0 → Fin S68x17.rank)
  reducesTo_S68x17_S_d0_1 : S68x17.ReducesTo [0, 1] S_
  bcast_S_S85x1 : S_.BroadcastsInDim S85x1 (![] : Fin 0 → Fin S85x1.rank)
  reducesTo_S85x1_S_d0_1 : S85x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S85x1 .f32) (main_arg8 : FVec F S1 .f32) (main_v33 : IVec S_ 1) : IVec S_ 1 :=
  let main_v34 : FVec F S85x1 .f32 := Host.absf main_arg7
  let main_cst_12 : FVec F S_ .f32 := constant S_ .f32 0x7F800000#32
  let main_v35 : FVec F S85x1 .f32 := broadcastInDim S85x1 ![] bcast_S_S85x1 main_cst_12
  let main_v36 : IVec S85x1 1 := cmpf .olt main_v34 main_v35
  let main_c_13 : IVec S_ 1 := constantI S_ 1 1#1
  let main_v37 : IVec S_ 1 := (fun x v => Host.reduce IntOp.andi x v reducesTo_S85x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S17 .f32) (main_arg5 : FVec F S68x17 .f32) (main_arg6 : FVec F S17 .f32) (main_arg7 : FVec F S85x1 .f32) (main_arg8 : FVec F S1 .f32) (main_v13 : IVec S_ 1) (main_v16 : IVec S34x17 1) : IVec S_ 1 :=
  let main_c_5 : IVec S_ 1 := constantI S_ 1 1#1
  let main_v17 : IVec S_ 1 := (fun x v => Host.reduce IntOp.andi x v reducesTo_S34x17_S_d0_1 h_S_) main_v16 main_c_5
  let main_v18 : IVec S_ 1 := andi main_v13 main_v17
  let main_v19 : FVec F S17 .f32 := Host.absf main_arg4
  let main_cst_6 : FVec F S_ .f32 := constant S_ .f32 0x7F800000#32
  let main_v20 : FVec F S17 .f32 := broadcastInDim S17 ![] bcast_S_S17 main_cst_6
  let main_v21 : IVec S17 1 := cmpf .olt main_v19 main_v20
  let main_c_7 : IVec S_ 1 := constantI S_ 1 1#1
  let main_v22 : IVec S_ 1 := (fun x v => Host.reduce IntOp.andi x v reducesTo_S17_S_d0 h_S_) main_v21 main_c_7
  let main_v23 : IVec S_ 1 := andi main_v18 main_v22
  let main_v24 : FVec F S68x17 .f32 := Host.absf main_arg5
  let main_cst_8 : FVec F S_ .f32 := constant S_ .f32 0x7F800000#32
  let main_v25 : FVec F S68x17 .f32 := broadcastInDim S68x17 ![] bcast_S_S68x17 main_cst_8
  let main_v26 : IVec S68x17 1 := cmpf .olt main_v24 main_v25
  let main_c_9 : IVec S_ 1 := constantI S_ 1 1#1
  let main_v27 : IVec S_ 1 := (fun x v => Host.reduce IntOp.andi x v reducesTo_S68x17_S_d0_1 h_S_) main_v26 main_c_9
  let main_v28 : IVec S_ 1 := andi main_v23 main_v27
  let main_v29 : FVec F S17 .f32 := Host.absf main_arg6
  let main_cst_10 : FVec F S_ .f32 := constant S_ .f32 0x7F800000#32
  let main_v30 : FVec F S17 .f32 := broadcastInDim S17 ![] bcast_S_S17 main_cst_10
  let main_v31 : IVec S17 1 := cmpf .olt main_v29 main_v30
  let main_c_11 : IVec S_ 1 := constantI S_ 1 1#1
  let main_v32 : IVec S_ 1 := (fun x v => Host.reduce IntOp.andi x v reducesTo_S17_S_d0 h_S_) main_v31 main_c_11
  let main_v33 : IVec S_ 1 := andi main_v28 main_v32
  fn_part2 (F := F) main_arg7 main_arg8 main_v33

def fn {F : FTy → Type} [FloatOps F] (main_arg0 : FVec F S1048576x5 .f32) (main_arg1 : FVec F S1x17 .f32) (main_arg2 : FVec F S17 .f32) (main_arg3 : FVec F S34x17 .f32) (main_arg4 : FVec F S17 .f32) (main_arg5 : FVec F S68x17 .f32) (main_arg6 : FVec F S17 .f32) (main_arg7 : FVec F S85x1 .f32) (main_arg8 : FVec F S1 .f32) : IVec S_ 1 :=
  let main_v0 : FVec F S1048576x5 .f32 := Host.absf main_arg0
  let main_cst : FVec F S_ .f32 := constant S_ .f32 0x7F800000#32
  let main_v1 : FVec F S1048576x5 .f32 := broadcastInDim S1048576x5 ![] bcast_S_S1048576x5 main_cst
  let main_v2 : IVec S1048576x5 1 := cmpf .olt main_v0 main_v1
  let main_c : IVec S_ 1 := constantI S_ 1 1#1
  let main_v3 : IVec S_ 1 := (fun x v => Host.reduce IntOp.andi x v reducesTo_S1048576x5_S_d0_1 h_S_) main_v2 main_c
  let main_v4 : FVec F S1x17 .f32 := Host.absf main_arg1
  let main_cst_0 : FVec F S_ .f32 := constant S_ .f32 0x7F800000#32
  let main_v5 : FVec F S1x17 .f32 := broadcastInDim S1x17 ![] bcast_S_S1x17 main_cst_0
  let main_v6 : IVec S1x17 1 := cmpf .olt main_v4 main_v5
  let main_c_1 : IVec S_ 1 := constantI S_ 1 1#1
  let main_v7 : IVec S_ 1 := (fun x v => Host.reduce IntOp.andi x v reducesTo_S1x17_S_d0_1 h_S_) main_v6 main_c_1
  let main_v8 : IVec S_ 1 := andi main_v3 main_v7
  let main_v9 : FVec F S17 .f32 := Host.absf main_arg2
  let main_cst_2 : FVec F S_ .f32 := constant S_ .f32 0x7F800000#32
  let main_v10 : FVec F S17 .f32 := broadcastInDim S17 ![] bcast_S_S17 main_cst_2
  let main_v11 : IVec S17 1 := cmpf .olt main_v9 main_v10
  let main_c_3 : IVec S_ 1 := constantI S_ 1 1#1
  let main_v12 : IVec S_ 1 := (fun x v => Host.reduce IntOp.andi x v reducesTo_S17_S_d0 h_S_) main_v11 main_c_3
  let main_v13 : IVec S_ 1 := andi main_v8 main_v12
  let main_v14 : FVec F S34x17 .f32 := Host.absf main_arg3
  let main_cst_4 : FVec F S_ .f32 := constant S_ .f32 0x7F800000#32
  let main_v15 : FVec F S34x17 .f32 := broadcastInDim S34x17 ![] bcast_S_S34x17 main_cst_4
  let main_v16 : IVec S34x17 1 := cmpf .olt main_v14 main_v15
  fn_part1 (F := F) main_arg4 main_arg5 main_arg6 main_arg7 main_arg8 main_v13 main_v16
-- ==== Kernel.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S17x17 : Shape := ⟨2, ![17, 17]⟩
abbrev S17x1 : Shape := ⟨2, ![17, 1]⟩
abbrev S1048576x1 : Shape := ⟨2, ![1048576, 1]⟩
abbrev S2048x5 : Shape := ⟨2, ![2048, 5]⟩
abbrev S2048x1 : Shape := ⟨2, ![2048, 1]⟩
abbrev S2048x17 : Shape := ⟨2, ![2048, 17]⟩
abbrev S1x1 : Shape := ⟨2, ![1, 1]⟩

abbrev nBuf : Space → Nat
  | .hbm => 21
  | .vmem => 20
  | .smem => 0
  | _ => 0

abbrev bufTy : (tb : Table) → Fin (tcTables nBuf tb) → BufTy
  | .hbm, ⟨0, _⟩ => ⟨S1048576x5, .f32⟩
  | .hbm, ⟨1, _⟩ => ⟨S1x17, .f32⟩
  | .hbm, ⟨2, _⟩ => ⟨S17, .f32⟩
  | .hbm, ⟨3, _⟩ => ⟨S34x17, .f32⟩
  | .hbm, ⟨4, _⟩ => ⟨S17, .f32⟩
  | .hbm, ⟨5, _⟩ => ⟨S68x17, .f32⟩
  | .hbm, ⟨6, _⟩ => ⟨S17, .f32⟩
  | .hbm, ⟨7, _⟩ => ⟨S85x1, .f32⟩
  | .hbm, ⟨8, _⟩ => ⟨S1, .f32⟩
  | .hbm, ⟨9, _⟩ => ⟨S17x17, .f32⟩
  | .hbm, ⟨10, _⟩ => ⟨S17x17, .f32⟩
  | .hbm, ⟨11, _⟩ => ⟨S17x17, .f32⟩
  | .hbm, ⟨12, _⟩ => ⟨S17x17, .f32⟩
  | .hbm, ⟨13, _⟩ => ⟨S17x17, .f32⟩
  | .hbm, ⟨14, _⟩ => ⟨S17x17, .f32⟩
  | .hbm, ⟨15, _⟩ => ⟨S17x1, .f32⟩
  | .hbm, ⟨16, _⟩ => ⟨S17x1, .f32⟩
  | .hbm, ⟨17, _⟩ => ⟨S17x1, .f32⟩
  | .hbm, ⟨18, _⟩ => ⟨S17x1, .f32⟩
  | .hbm, ⟨19, _⟩ => ⟨S17x1, .f32⟩
  | .hbm, ⟨20, _⟩ => ⟨S1048576x1, .f32⟩
  | .local _ .vmem, ⟨0, _⟩ => ⟨S2048x5, .f32⟩
  | .local _ .vmem, ⟨1, _⟩ => ⟨S2048x5, .f32⟩
  | .local _ .vmem, ⟨2, _⟩ => ⟨S1x17, .f32⟩
  | .local _ .vmem, ⟨3, _⟩ => ⟨S17, .f32⟩
  | .local _ .vmem, ⟨4, _⟩ => ⟨S17x17, .f32⟩
  | .local _ .vmem, ⟨5, _⟩ => ⟨S17x17, .f32⟩
  | .local _ .vmem, ⟨6, _⟩ => ⟨S17, .f32⟩
  | .local _ .vmem, ⟨7, _⟩ => ⟨S17x17, .f32⟩
  | .local _ .vmem, ⟨8, _⟩ => ⟨S17x17, .f32⟩
  | .local _ .vmem, ⟨9, _⟩ => ⟨S17x17, .f32⟩
  | .local _ .vmem, ⟨10, _⟩ => ⟨S17x17, .f32⟩
  | .local _ .vmem, ⟨11, _⟩ => ⟨S17, .f32⟩
  | .local _ .vmem, ⟨12, _⟩ => ⟨S17x1, .f32⟩
  | .local _ .vmem, ⟨13, _⟩ => ⟨S17x1, .f32⟩
  | .local _ .vmem, ⟨14, _⟩ => ⟨S17x1, .f32⟩
  | .local _ .vmem, ⟨15, _⟩ => ⟨S17x1, .f32⟩
  | .local _ .vmem, ⟨16, _⟩ => ⟨S17x1, .f32⟩
  | .local _ .vmem, ⟨17, _⟩ => ⟨S1, .f32⟩
  | .local _ .vmem, ⟨18, _⟩ => ⟨S2048x1, .f32⟩
  | .local _ .vmem, ⟨19, _⟩ => ⟨S2048x1, .f32⟩
  | _, _ => ⟨S1048576x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S17x17 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S17x17 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S17 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S17x17 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S17x17 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S17x17 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S17x17 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S17 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S17x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S17x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S17x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S17x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S17x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2048x1 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S34x17_S17x17_0_0 : S34x17.Slices ![0, 0] S17x17
  slices_S34x17_S17x17_17_0 : S34x17.Slices ![17, 0] S17x17
  slices_S68x17_S17x17_0_0 : S68x17.Slices ![0, 0] S17x17
  slices_S68x17_S17x17_17_0 : S68x17.Slices ![17, 0] S17x17
  slices_S68x17_S17x17_34_0 : S68x17.Slices ![34, 0] S17x17
  slices_S68x17_S17x17_51_0 : S68x17.Slices ![51, 0] S17x17
  slices_S85x1_S17x1_0_0 : S85x1.Slices ![0, 0] S17x1
  slices_S85x1_S17x1_17_0 : S85x1.Slices ![17, 0] S17x1
  slices_S85x1_S17x1_34_0 : S85x1.Slices ![34, 0] S17x1
  slices_S85x1_S17x1_51_0 : S85x1.Slices ![51, 0] S17x1
  slices_S85x1_S17x1_68_0 : S85x1.Slices ![68, 0] S17x1
  inb_S1x17_S1x17_0_0 : ∀ a, (![0, 0] : Fin 2 → Nat) a + S1x17.size a ≤ S1x17.size a
  h_S1x17 : 0 < S1x17.numel
  shapeCasts_S1x17_S17 : S1x17.ShapeCasts S17
  inb_S17_S17_0 : ∀ a, (![0] : Fin 1 → Nat) a + S17.size a ≤ S17.size a
  h_S17 : 0 < S17.numel
  inb_S2048x5_S2048x1_0_0 : ∀ a, (![0, 0] : Fin 2 → Nat) a + S2048x1.size a ≤ S2048x5.size a
  h_S2048x1 : 0 < S2048x1.numel
  shapeCasts_S17_S1x17 : S17.ShapeCasts S1x17
  broadcasts_S2048x1_S2048x17 : S2048x1.Broadcasts S2048x17
  broadcasts_S1x17_S2048x17 : S1x17.Broadcasts S2048x17
  inb_S2048x5_S2048x1_0_1 : ∀ a, (![0, 1] : Fin 2 → Nat) a + S2048x1.size a ≤ S2048x5.size a
  inb_S2048x5_S2048x1_0_2 : ∀ a, (![0, 2] : Fin 2 → Nat) a + S2048x1.size a ≤ S2048x5.size a
  inb_S2048x5_S2048x1_0_3 : ∀ a, (![0, 3] : Fin 2 → Nat) a + S2048x1.size a ≤ S2048x5.size a
  inb_S2048x5_S2048x1_0_4 : ∀ a, (![0, 4] : Fin 2 → Nat) a + S2048x1.size a ≤ S2048x5.size a
  inb_S17x17_S17x17_0_0 : ∀ a, (![0, 0] : Fin 2 → Nat) a + S17x17.size a ≤ S17x17.size a
  h_S17x17 : 0 < S17x17.numel
  shapeCasts_S17x17_S17x17 : S17x17.ShapeCasts S17x17
  bitsLt_bf16_f32 : FTy.bits .bf16 < FTy.bits .f32
  inb_S17x1_S17x1_0_0 : ∀ a, (![0, 0] : Fin 2 → Nat) a + S17x1.size a ≤ S17x1.size a
  h_S17x1 : 0 < S17x1.numel
  shapeCasts_S17x1_S17x1 : S17x1.ShapeCasts S17x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x1_S2048x1_0_0 : ∀ a, (![0, 0] : Fin 2 → Nat) a + S2048x1.size a ≤ S2048x1.size a
  dot_S2048x17_S17x17_S2048x17_1_0_0_1_n_n_wf : DotDims.WF S2048x17 S17x17 S2048x17 [1] [0] [0] [1] [] []
  dot_S2048x17_S17x1_S2048x1_1_0_0_1_n_n_wf : DotDims.WF S2048x17 S17x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x5.size a ≤ S1048576x5.size a
  hwx0_0 : ∀ i : grid0.Coords, EltTy.bits .f32 = 32 ∨ (Rect.block (s := S1048576x5) S2048x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x17.size a ≤ S1x17.size a
  hwx0_1 : ∀ i : grid0.Coords, EltTy.bits .f32 = 32 ∨ (Rect.block (s := S1x17) S1x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17.size a ≤ S17.size a
  hwx0_2 : ∀ i : grid0.Coords, EltTy.bits .f32 = 32 ∨ (Rect.block (s := S17) S17.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S17x17.size a ≤ S17x17.size a
  hwx0_3 : ∀ i : grid0.Coords, EltTy.bits .f32 = 32 ∨ (Rect.block (s := S17x17) S17x17.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S17x17.size a ≤ S17x17.size a
  hwx0_4 : ∀ i : grid0.Coords, EltTy.bits .f32 = 32 ∨ (Rect.block (s := S17x17) S17x17.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S17.size a ≤ S17.size a
  hwx0_5 : ∀ i : grid0.Coords, EltTy.bits .f32 = 32 ∨ (Rect.block (s := S17) S17.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S17x17.size a ≤ S17x17.size a
  hwx0_6 : ∀ i : grid0.Coords, EltTy.bits .f32 = 32 ∨ (Rect.block (s := S17x17) S17x17.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S17x17.size a ≤ S17x17.size a
  hwx0_7 : ∀ i : grid0.Coords, EltTy.bits .f32 = 32 ∨ (Rect.block (s := S17x17) S17x17.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S17x17.size a ≤ S17x17.size a
  hwx0_8 : ∀ i : grid0.Coords, EltTy.bits .f32 = 32 ∨ (Rect.block (s := S17x17) S17x17.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S17x17.size a ≤ S17x17.size a
  hwx0_9 : ∀ i : grid0.Coords, EltTy.bits .f32 = 32 ∨ (Rect.block (s := S17x17) S17x17.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S17.size a ≤ S17.size a
  hwx0_10 : ∀ i : grid0.Coords, EltTy.bits .f32 = 32 ∨ (Rect.block (s := S17) S17.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S17x1.size a ≤ S17x1.size a
  hwx0_11 : ∀ i : grid0.Coords, EltTy.bits .f32 = 32 ∨ (Rect.block (s := S17x1) S17x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S17x1.size a ≤ S17x1.size a
  hwx0_12 : ∀ i : grid0.Coords, EltTy.bits .f32 = 32 ∨ (Rect.block (s := S17x1) S17x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S17x1.size a ≤ S17x1.size a
  hwx0_13 : ∀ i : grid0.Coords, EltTy.bits .f32 = 32 ∨ (Rect.block (s := S17x1) S17x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S17x1.size a ≤ S17x1.size a
  hwx0_14 : ∀ i : grid0.Coords, EltTy.bits .f32 = 32 ∨ (Rect.block (s := S17x1) S17x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S17x1.size a ≤ S17x1.size a
  hwx0_15 : ∀ i : grid0.Coords, EltTy.bits .f32 = 32 ∨ (Rect.block (s := S17x1) S17x1.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1.size a ≤ S1.size a
  hwx0_16 : ∀ i : grid0.Coords, EltTy.bits .f32 = 32 ∨ (Rect.block (s := S1) S1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x1.size a ≤ S1048576x1.size a
  hwx0_17 : ∀ i : grid0.Coords, EltTy.bits .f32 = 32 ∨ (Rect.block (s := S1048576x1) S2048x1.size (cc0_transform_17 i) (hinb0_17 i)).WholeWords (EltTy.packing .f32)

variable [Facts₀]

def dot_S2048x17_S17x17_S2048x17_1_0_0_1_n_n : DotDims S2048x17 S17x17 S2048x17 where
  lhsContracting := [1]
  rhsContracting := [0]
  lhsNonContracting := [0]
  rhsNonContracting := [1]
  lhsBatch := []
  rhsBatch := []
  wf := dot_S2048x17_S17x17_S2048x17_1_0_0_1_n_n_wf
def dot_S2048x17_S17x1_S2048x1_1_0_0_1_n_n : DotDims S2048x17 S17x1 S2048x1 where
  lhsContracting := [1]
  rhsContracting := [0]
  lhsNonContracting := [0]
  rhsNonContracting := [1]
  lhsBatch := []
  rhsBatch := []
  wf := dot_S2048x17_S17x1_S2048x1_1_0_0_1_n_n_wf

abbrev win0_0 : Pipeline.Window sig grid0 :=
  Pipeline.Window.ofSpec (Memref.whole main_arg0) S2048x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S17.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S17x17.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S17x17.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S17.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S17x17.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S17x17.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S17x17.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S17x17.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S17.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S17x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S17x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S17x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S17x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S17x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg8) S1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v11) S2048x1.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S1048576x5 : Shape := ⟨2, ![1048576, 5]⟩
abbrev S1x17 : Shape := ⟨2, ![1, 17]⟩
abbrev S17 : Shape := ⟨1, ![17]⟩
abbrev S34x17 : Shape := ⟨2, ![34, 17]⟩
abbrev S68x17 : Shape := ⟨2, ![68, 17]⟩
abbrev S85x1 : Shape := ⟨2, ![85, 1]⟩
abbrev S1 : Shape := ⟨1, ![1]⟩
abbrev S1048576x5x1 : Shape := ⟨3, ![1048576, 5, 1]⟩
abbrev S1x1x17 : Shape := ⟨3, ![1, 1, 17]⟩
abbrev S1048576x5x17 : Shape := ⟨3, ![1048576, 5, 17]⟩
abbrev S1048576x1x17 : Shape := ⟨3, ![1048576, 1, 17]⟩
abbrev S1048576x17 : Shape := ⟨2, ![1048576, 17]⟩
abbrev S17x17 : Shape := ⟨2, ![17, 17]⟩
abbrev S_ : Shape := ⟨0, ![]⟩
abbrev S17x1 : Shape := ⟨2, ![17, 1]⟩
abbrev S1048576x1 : Shape := ⟨2, ![1048576, 1]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S1048576x5, .f32⟩
  | 1 => ⟨S1x17, .f32⟩
  | 2 => ⟨S17, .f32⟩
  | 3 => ⟨S34x17, .f32⟩
  | 4 => ⟨S17, .f32⟩
  | 5 => ⟨S68x17, .f32⟩
  | 6 => ⟨S17, .f32⟩
  | 7 => ⟨S85x1, .f32⟩
  | 8 => ⟨S1, .f32⟩
  | 9 => ⟨S1048576x5x1, .f32⟩
  | 10 => ⟨S17, .f32⟩
  | 11 => ⟨S1x1x17, .f32⟩
  | 12 => ⟨S1048576x5x17, .f32⟩
  | 13 => ⟨S1048576x5x17, .f32⟩
  | 14 => ⟨S1048576x5x17, .f32⟩
  | 15 => ⟨S1x1x17, .f32⟩
  | 16 => ⟨S1048576x5x17, .f32⟩
  | 17 => ⟨S1048576x5x17, .f32⟩
  | 18 => ⟨S1048576x5x17, .f32⟩
  | 19 => ⟨S1048576x1x17, .f32⟩
  | 20 => ⟨S1048576x17, .f32⟩
  | 21 => ⟨S1048576x1x17, .f32⟩
  | 22 => ⟨S1048576x17, .f32⟩
  | 23 => ⟨S1048576x1x17, .f32⟩
  | 24 => ⟨S1048576x17, .f32⟩
  | 25 => ⟨S1048576x1x17, .f32⟩
  | 26 => ⟨S1048576x17, .f32⟩
  | 27 => ⟨S1048576x1x17, .f32⟩
  | 28 => ⟨S1048576x17, .f32⟩
  | 29 => ⟨S17x17, .f32⟩
  | 30 => ⟨S1048576x17, .f32⟩
  | 31 => ⟨S17x17, .f32⟩
  | 32 => ⟨S1048576x17, .f32⟩
  | 33 => ⟨S1048576x17, .f32⟩
  | 34 => ⟨S1x17, .f32⟩
  | 35 => ⟨S1048576x17, .f32⟩
  | 36 => ⟨S1048576x17, .f32⟩
  | 37 => ⟨S1048576x17, .f32⟩
  | 38 => ⟨S17x17, .f32⟩
  | 39 => ⟨S1048576x17, .f32⟩
  | 40 => ⟨S17x17, .f32⟩
  | 41 => ⟨S1048576x17, .f32⟩
  | 42 => ⟨S1048576x17, .f32⟩
  | 43 => ⟨S1x17, .f32⟩
  | 44 => ⟨S1048576x17, .f32⟩
  | 45 => ⟨S1048576x17, .f32⟩
  | 46 => ⟨S1048576x17, .f32⟩
  | 47 => ⟨S17x17, .f32⟩
  | 48 => ⟨S1048576x17, .f32⟩
  | 49 => ⟨S17x17, .f32⟩
  | 50 => ⟨S1048576x17, .f32⟩
  | 51 => ⟨S1048576x17, .f32⟩
  | 52 => ⟨S1x17, .f32⟩
  | 53 => ⟨S1048576x17, .f32⟩
  | 54 => ⟨S1048576x17, .f32⟩
  | 55 => ⟨S1048576x17, .f32⟩
  | 56 => ⟨S17x17, .f32⟩
  | 57 => ⟨S1048576x17, .f32⟩
  | 58 => ⟨S17x17, .f32⟩
  | 59 => ⟨S1048576x17, .f32⟩
  | 60 => ⟨S1048576x17, .f32⟩
  | 61 => ⟨S1x17, .f32⟩
  | 62 => ⟨S1048576x17, .f32⟩
  | 63 => ⟨S1048576x17, .f32⟩
  | 64 => ⟨S1048576x17, .f32⟩
  | 65 => ⟨S17x17, .f32⟩
  | 66 => ⟨S1048576x17, .f32⟩
  | 67 => ⟨S17x17, .f32⟩
  | 68 => ⟨S1048576x17, .f32⟩
  | 69 => ⟨S1048576x17, .f32⟩
  | 70 => ⟨S1x17, .f32⟩
  | 71 => ⟨S1048576x17, .f32⟩
  | 72 => ⟨S1048576x17, .f32⟩
  | 73 => ⟨S1048576x17, .f32⟩
  | 74 => ⟨S17x17, .f32⟩
  | 75 => ⟨S1048576x17, .f32⟩
  | 76 => ⟨S17x17, .f32⟩
  | 77 => ⟨S1048576x17, .f32⟩
  | 78 => ⟨S1048576x17, .f32⟩
  | 79 => ⟨S1x17, .f32⟩
  | 80 => ⟨S1048576x17, .f32⟩
  | 81 => ⟨S1048576x17, .f32⟩
  | 82 => ⟨S1048576x17, .f32⟩
  | 83 => ⟨S17x17, .f32⟩
  | 84 => ⟨S1048576x17, .f32⟩
  | 85 => ⟨S17x17, .f32⟩
  | 86 => ⟨S1048576x17, .f32⟩
  | 87 => ⟨S1048576x17, .f32⟩
  | 88 => ⟨S1x17, .f32⟩
  | 89 => ⟨S1048576x17, .f32⟩
  | 90 => ⟨S1048576x17, .f32⟩
  | 91 => ⟨S1048576x17, .f32⟩
  | 92 => ⟨S17x17, .f32⟩
  | 93 => ⟨S1048576x17, .f32⟩
  | 94 => ⟨S17x17, .f32⟩
  | 95 => ⟨S1048576x17, .f32⟩
  | 96 => ⟨S1048576x17, .f32⟩
  | 97 => ⟨S1x17, .f32⟩
  | 98 => ⟨S1048576x17, .f32⟩
  | 99 => ⟨S1048576x17, .f32⟩
  | 100 => ⟨S1048576x17, .f32⟩
  | 101 => ⟨S_, .f32⟩
  | 102 => ⟨S1048576x17, .f32⟩
  | 103 => ⟨S17x17, .f32⟩
  | 104 => ⟨S1048576x17, .f32⟩
  | 105 => ⟨S17x17, .f32⟩
  | 106 => ⟨S1048576x17, .f32⟩
  | 107 => ⟨S1048576x17, .f32⟩
  | 108 => ⟨S17x17, .f32⟩
  | 109 => ⟨S1048576x17, .f32⟩
  | 110 => ⟨S1048576x17, .f32⟩
  | 111 => ⟨S17x17, .f32⟩
  | 112 => ⟨S1048576x17, .f32⟩
  | 113 => ⟨S1048576x17, .f32⟩
  | 114 => ⟨S1x17, .f32⟩
  | 115 => ⟨S1048576x17, .f32⟩
  | 116 => ⟨S1048576x17, .f32⟩
  | 117 => ⟨S1048576x17, .f32⟩
  | 118 => ⟨S17x17, .f32⟩
  | 119 => ⟨S1048576x17, .f32⟩
  | 120 => ⟨S17x17, .f32⟩
  | 121 => ⟨S1048576x17, .f32⟩
  | 122 => ⟨S1048576x17, .f32⟩
  | 123 => ⟨S17x17, .f32⟩
  | 124 => ⟨S1048576x17, .f32⟩
  | 125 => ⟨S1048576x17, .f32⟩
  | 126 => ⟨S17x17, .f32⟩
  | 127 => ⟨S1048576x17, .f32⟩
  | _ => ⟨S1048576x5, .f32⟩

abbrev hbmTy0_1 (i : Nat) : BufTy := match i % 128 with
  | 0 => ⟨S1048576x17, .f32⟩
  | 1 => ⟨S1x17, .f32⟩
  | 2 => ⟨S1048576x17, .f32⟩
  | 3 => ⟨S1048576x17, .f32⟩
  | 4 => ⟨S1048576x17, .f32⟩
  | 5 => ⟨S17x17, .f32⟩
  | 6 => ⟨S1048576x17, .f32⟩
  | 7 => ⟨S17x17, .f32⟩
  | 8 => ⟨S1048576x17, .f32⟩
  | 9 => ⟨S1048576x17, .f32⟩
  | 10 => ⟨S17x17, .f32⟩
  | 11 => ⟨S1048576x17, .f32⟩
  | 12 => ⟨S1048576x17, .f32⟩
  | 13 => ⟨S17x17, .f32⟩
  | 14 => ⟨S1048576x17, .f32⟩
  | 15 => ⟨S1048576x17, .f32⟩
  | 16 => ⟨S1x17, .f32⟩
  | 17 => ⟨S1048576x17, .f32⟩
  | 18 => ⟨S1048576x17, .f32⟩
  | 19 => ⟨S1048576x17, .f32⟩
  | 20 => ⟨S17x17, .f32⟩
  | 21 => ⟨S1048576x17, .f32⟩
  | 22 => ⟨S17x17, .f32⟩
  | 23 => ⟨S1048576x17, .f32⟩
  | 24 => ⟨S1048576x17, .f32⟩
  | 25 => ⟨S17x17, .f32⟩
  | 26 => ⟨S1048576x17, .f32⟩
  | 27 => ⟨S1048576x17, .f32⟩
  | 28 => ⟨S17x17, .f32⟩
  | 29 => ⟨S1048576x17, .f32⟩
  | 30 => ⟨S1048576x17, .f32⟩
  | 31 => ⟨S1x17, .f32⟩
  | 32 => ⟨S1048576x17, .f32⟩
  | 33 => ⟨S1048576x17, .f32⟩
  | 34 => ⟨S1048576x17, .f32⟩
  | 35 => ⟨S17x17, .f32⟩
  | 36 => ⟨S1048576x17, .f32⟩
  | 37 => ⟨S17x17, .f32⟩
  | 38 => ⟨S1048576x17, .f32⟩
  | 39 => ⟨S1048576x17, .f32⟩
  | 40 => ⟨S17x17, .f32⟩
  | 41 => ⟨S1048576x17, .f32⟩
  | 42 => ⟨S1048576x17, .f32⟩
  | 43 => ⟨S17x17, .f32⟩
  | 44 => ⟨S1048576x17, .f32⟩
  | 45 => ⟨S1048576x17, .f32⟩
  | 46 => ⟨S1x17, .f32⟩
  | 47 => ⟨S1048576x17, .f32⟩
  | 48 => ⟨S1048576x17, .f32⟩
  | 49 => ⟨S1048576x17, .f32⟩
  | 50 => ⟨S17x1, .f32⟩
  | 51 => ⟨S1048576x1, .f32⟩
  | 52 => ⟨S17x1, .f32⟩
  | 53 => ⟨S1048576x1, .f32⟩
  | 54 => ⟨S1048576x1, .f32⟩
  | 55 => ⟨S17x1, .f32⟩
  | 56 => ⟨S1048576x1, .f32⟩
  | 57 => ⟨S1048576x1, .f32⟩
  | 58 => ⟨S17x1, .f32⟩
  | 59 => ⟨S1048576x1, .f32⟩
  | 60 => ⟨S1048576x1, .f32⟩
  | 61 => ⟨S17x1, .f32⟩
  | 62 => ⟨S1048576x1, .f32⟩
  | 63 => ⟨S1048576x1, .f32⟩
  | 64 => ⟨S1x1, .f32⟩
  | 65 => ⟨S1048576x1, .f32⟩
  | 66 => ⟨S1048576x1, .f32⟩
  | _ => ⟨S1048576x5, .f32⟩

abbrev hbmTy (i : Nat) : BufTy := match i / 128 with
  | 0 => hbmTy0_0 i
  | 1 => hbmTy0_1 i
  | _ => ⟨S1048576x5, .f32⟩

abbrev bufTy : (tb : Table) → Fin (tcTables nBuf tb) → BufTy
  | .hbm, ⟨i, _⟩ => hbmTy i
  | _, _ => ⟨S1048576x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_cst : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩

abbrev nD : Nat := 1
abbrev τ : Topo := Topo.v7x

variable {F : FTy → Type} [FloatOps F]

class Facts₀ : Prop where
  bcast_S1048576x5_S1048576x5x1_0_1 : S1048576x5.BroadcastsInDim S1048576x5x1 (![0, 1] : Fin 2 → Fin S1048576x5x1.rank)
  shapeCasts_S1x17_S17 : S1x17.ShapeCasts S17
  bcast_S17_S1x1x17_2 : S17.BroadcastsInDim S1x1x17 (![2] : Fin 1 → Fin S1x1x17.rank)
  bcast_S1048576x5x1_S1048576x5x17_0_1_2 : S1048576x5x1.BroadcastsInDim S1048576x5x17 (![0, 1, 2] : Fin 3 → Fin S1048576x5x17.rank)
  bcast_S1x1x17_S1048576x5x17_0_1_2 : S1x1x17.BroadcastsInDim S1048576x5x17 (![0, 1, 2] : Fin 3 → Fin S1048576x5x17.rank)
  slices_S1048576x5x17_S1048576x1x17_0_0_0 : S1048576x5x17.Slices ![0, 0, 0] S1048576x1x17
  shapeCasts_S1048576x1x17_S1048576x17 : S1048576x1x17.ShapeCasts S1048576x17
  slices_S1048576x5x17_S1048576x1x17_0_1_0 : S1048576x5x17.Slices ![0, 1, 0] S1048576x1x17
  slices_S1048576x5x17_S1048576x1x17_0_2_0 : S1048576x5x17.Slices ![0, 2, 0] S1048576x1x17
  slices_S1048576x5x17_S1048576x1x17_0_3_0 : S1048576x5x17.Slices ![0, 3, 0] S1048576x1x17
  slices_S1048576x5x17_S1048576x1x17_0_4_0 : S1048576x5x17.Slices ![0, 4, 0] S1048576x1x17
  slices_S34x17_S17x17_0_0 : S34x17.Slices ![0, 0] S17x17
  slices_S34x17_S17x17_17_0 : S34x17.Slices ![17, 0] S17x17
  bcast_S17_S1x17_1 : S17.BroadcastsInDim S1x17 (![1] : Fin 1 → Fin S1x17.rank)
  bcast_S1x17_S1048576x17_0_1 : S1x17.BroadcastsInDim S1048576x17 (![0, 1] : Fin 2 → Fin S1048576x17.rank)
  bcast_S_S1048576x17 : S_.BroadcastsInDim S1048576x17 (![] : Fin 0 → Fin S1048576x17.rank)
  slices_S68x17_S17x17_0_0 : S68x17.Slices ![0, 0] S17x17
  slices_S68x17_S17x17_17_0 : S68x17.Slices ![17, 0] S17x17
  slices_S68x17_S17x17_34_0 : S68x17.Slices ![34, 0] S17x17
  slices_S68x17_S17x17_51_0 : S68x17.Slices ![51, 0] S17x17
  slices_S85x1_S17x1_0_0 : S85x1.Slices ![0, 0] S17x1
  slices_S85x1_S17x1_17_0 : S85x1.Slices ![17, 0] S17x1
  slices_S85x1_S17x1_34_0 : S85x1.Slices ![34, 0] S17x1
  slices_S85x1_S17x1_51_0 : S85x1.Slices ![51, 0] S17x1
  slices_S85x1_S17x1_68_0 : S85x1.Slices ![68, 0] S17x1
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S1048576x17_S17x17_S1048576x17_1_0_0_1_n_n_wf : DotDims.WF S1048576x17 S17x17 S1048576x17 [1] [0] [0] [1] [] []
  dot_S1048576x17_S17x1_S1048576x1_1_0_0_1_n_n_wf : DotDims.WF S1048576x17 S17x1 S1048576x1 [1] [0] [0] [1] [] []

variable [Facts₀]

def dot_S1048576x17_S17x17_S1048576x17_1_0_0_1_n_n : DotDims S1048576x17 S17x17 S1048576x17 where
  lhsContracting := [1]
  rhsContracting := [0]
  lhsNonContracting := [0]
  rhsNonContracting := [1]
  lhsBatch := []
  rhsBatch := []
  wf := dot_S1048576x17_S17x17_S1048576x17_1_0_0_1_n_n_wf
def dot_S1048576x17_S17x1_S1048576x1_1_0_0_1_n_n : DotDims S1048576x17 S17x1 S1048576x1 where
  lhsContracting := [1]
  rhsContracting := [0]
  lhsNonContracting := [0]
  rhsNonContracting := [1]
  lhsBatch := []
  rhsBatch := []
  wf := dot_S1048576x17_S17x1_S1048576x1_1_0_0_1_n_n_wf

class Facts : Prop extends Facts₀ where

variable [Facts]
-- ==== Proof.Row.lean ====
/-
  The network both programs compute, one row at a time, over the extended reals.

  A row of the input holds five numbers x₀ … x₄.  Each becomes a feature vector of seventeen entries,
  tanh (xᵢ · w_f + b_f).  Four of the five nodes (a, b, c, d) sit on a ring a – b – c – d – a; along every directed
  edge p → q a message tanh (p · W₁ + q · W₂ + b_m) is formed, and each ring node is updated from its two incoming
  messages and its own features, tanh (m₁ · U₁ + m₂ · U₂ + f · U₃ + f · U₄ + b_u).  The fifth node, e, receives no
  message: its update is tanh (f · U₃ + f · U₄ + b_u), which is the general update at two zero messages
  (`upd_zero`: a sum of products with zero is zero on the extended reals too, since 0 · ±∞ = 0 there).  The row's
  result is the sum of the five updated vectors' inner products with five readout vectors, plus a bias.

  Every sum is written in the one order both programs use (left to right), so no law of addition beyond
  0 + x = x is ever needed.
-/
import Idealize.ShloMosaic.PureOps.Ideal
import Idealize.ShloMosaic.Lib.ValueIdx

noncomputable section

namespace Cert.MP

open Idealize.ShloMosaic Idealize.ShloMosaic.ValueIdx

/-- A vector of the hidden width. -/
abbrev Row := Fin 17 → EReal
/-- A square weight block of the hidden width, entry (k, j) multiplying input k into output j. -/
abbrev Mat := Fin 17 → Fin 17 → EReal

/-- The feature vector of one input number. -/
def feat (wf bf : Row) (x : EReal) : Row := fun j => Ideal.tanh (x * wf j + bf j)

/-- A row vector times a weight block. -/
def lin (W : Mat) (p : Row) : Row := fun j => ∑ k : Fin 17, p k * W k j

/-- The message along an edge p → q. -/
def msg (W1 W2 : Mat) (b : Row) (p q : Row) : Row := fun j => Ideal.tanh (lin W1 p j + lin W2 q j + b j)

/-- A node's update from two messages, its state and its features. -/
def upd (W1 W2 W3 W4 : Mat) (b : Row) (m1 m2 u f : Row) : Row :=
  fun j => Ideal.tanh (lin W1 m1 j + lin W2 m2 j + lin W3 u j + lin W4 f j + b j)

/-- The update of a node that receives no message. -/
def updSelf (W3 W4 : Mat) (b : Row) (f : Row) : Row := fun j => Ideal.tanh (lin W3 f j + lin W4 f j + b j)

/-- The inner product with a readout vector. -/
def dot (w : Row) (p : Row) : EReal := ∑ k : Fin 17, p k * w k

/-- The zero vector times any weight block is the zero vector, infinite weights included. -/
theorem lin_zero (W : Mat) : lin W (fun _ => 0) = fun _ => 0 := by
  funext j
  simp [lin]

/-- With both messages zero the general update is the message-free one. -/
theorem upd_zero (W1 W2 W3 W4 : Mat) (b f : Row) :
    upd W1 W2 W3 W4 b (fun _ => 0) (fun _ => 0) f f = updSelf W3 W4 b f := by
  funext j
  simp only [upd, updSelf, lin_zero, add_zero, zero_add]

/-- The network's parameters, as the two programs read them out of the argument arrays. -/
structure Params where
  wf : Row
  bf : Row
  Wm1 : Mat
  Wm2 : Mat
  bm : Row
  Wu1 : Mat
  Wu2 : Mat
  Wu3 : Mat
  Wu4 : Mat
  bu : Row
  wr1 : Row
  wr2 : Row
  wr3 : Row
  wr4 : Row
  wr5 : Row
  br : EReal

/-- The readout of the five updated nodes, from the five feature vectors. -/
def readout (P : Params) (a b c d e : Row) : EReal :=
  dot P.wr1 (upd P.Wu1 P.Wu2 P.Wu3 P.Wu4 P.bu (msg P.Wm1 P.Wm2 P.bm a b) (msg P.Wm1 P.Wm2 P.bm a d) a a)
  + dot P.wr2 (upd P.Wu1 P.Wu2 P.Wu3 P.Wu4 P.bu (msg P.Wm1 P.Wm2 P.bm b a) (msg P.Wm1 P.Wm2 P.bm b c) b b)
  + dot P.wr3 (upd P.Wu1 P.Wu2 P.Wu3 P.Wu4 P.bu (msg P.Wm1 P.Wm2 P.bm c b) (msg P.Wm1 P.Wm2 P.bm c d) c c)
  + dot P.wr4 (upd P.Wu1 P.Wu2 P.Wu3 P.Wu4 P.bu (msg P.Wm1 P.Wm2 P.bm d c) (msg P.Wm1 P.Wm2 P.bm d a) d d)
  + dot P.wr5 (updSelf P.Wu3 P.Wu4 P.bu e)
  + P.br

/-- The whole network on one row of five numbers. -/
def net (P : Params) (x : Fin 5 → EReal) : EReal :=
  readout P (feat P.wf P.bf (x 0)) (feat P.wf P.bf (x 1)) (feat P.wf P.bf (x 2)) (feat P.wf P.bf (x 3))
    (feat P.wf P.bf (x 4))

/-- Row p of an array of seventeen columns. -/
def row {n : Nat} (X : (⟨2, ![n, 17]⟩ : Shape).Idx → EReal) (p : Fin n) : Row := fun k => X (ix2 p k)
/-- A 17 × 17 array as a weight block. -/
def mat (W : (⟨2, ![17, 17]⟩ : Shape).Idx → EReal) : Mat := fun k j => W (ix2 k j)
/-- A 17-vector as a row. -/
def vec (b : (⟨1, ![17]⟩ : Shape).Idx → EReal) : Row := fun j => b (ix1 j)
/-- The one column of a 17 × 1 array. -/
def col (w : (⟨2, ![17, 1]⟩ : Shape).Idx → EReal) : Row := fun k => w (ix2 k (0 : Fin 1))
/-- The one row of a 1 × 17 array. -/
def row0 (w : (⟨2, ![1, 17]⟩ : Shape).Idx → EReal) : Row := fun j => w (ix2 (0 : Fin 1) j)

/-- The parameters read out of arrays: the feature weights are the one row of a 1 × 17 array, the readout vectors the
    one column of 17 × 1 arrays, the last bias the one entry of a 1-vector. -/
def paramsOf (A1 : (⟨2, ![1, 17]⟩ : Shape).Idx → EReal) (A2 : (⟨1, ![17]⟩ : Shape).Idx → EReal)
    (M1 M2 : (⟨2, ![17, 17]⟩ : Shape).Idx → EReal) (A4 : (⟨1, ![17]⟩ : Shape).Idx → EReal)
    (U1 U2 U3 U4 : (⟨2, ![17, 17]⟩ : Shape).Idx → EReal) (A6 : (⟨1, ![17]⟩ : Shape).Idx → EReal)
    (R1 R2 R3 R4 R5 : (⟨2, ![17, 1]⟩ : Shape).Idx → EReal) (A8 : (⟨1, ![1]⟩ : Shape).Idx → EReal) : Params where
  wf := row0 A1
  bf := vec A2
  Wm1 := mat M1
  Wm2 := mat M2
  bm := vec A4
  Wu1 := mat U1
  Wu2 := mat U2
  Wu3 := mat U3
  Wu4 := mat U4
  bu := vec A6
  wr1 := col R1
  wr2 := col R2
  wr3 := col R3
  wr4 := col R4
  wr5 := col R5
  br := A8 (ix1 (0 : Fin 1))

/-! The weight blocks are cut out of the three stacked weight arrays: rows 17·i … 17·i + 16 of a 34 × 17, a 68 × 17 and
    an 85 × 1 array. -/
theorem cutM0 : (⟨2, ![34, 17]⟩ : Shape).Slices ![0, 0] ⟨2, ![17, 17]⟩ := by decide
theorem cutM1 : (⟨2, ![34, 17]⟩ : Shape).Slices ![17, 0] ⟨2, ![17, 17]⟩ := by decide
theorem cutU0 : (⟨2, ![68, 17]⟩ : Shape).Slices ![0, 0] ⟨2, ![17, 17]⟩ := by decide
theorem cutU1 : (⟨2, ![68, 17]⟩ : Shape).Slices ![17, 0] ⟨2, ![17, 17]⟩ := by decide
theorem cutU2 : (⟨2, ![68, 17]⟩ : Shape).Slices ![34, 0] ⟨2, ![17, 17]⟩ := by decide
theorem cutU3 : (⟨2, ![68, 17]⟩ : Shape).Slices ![51, 0] ⟨2, ![17, 17]⟩ := by decide
theorem cutR0 : (⟨2, ![85, 1]⟩ : Shape).Slices ![0, 0] ⟨2, ![17, 1]⟩ := by decide
theorem cutR1 : (⟨2, ![85, 1]⟩ : Shape).Slices ![17, 0] ⟨2, ![17, 1]⟩ := by decide
theorem cutR2 : (⟨2, ![85, 1]⟩ : Shape).Slices ![34, 0] ⟨2, ![17, 1]⟩ := by decide
theorem cutR3 : (⟨2, ![85, 1]⟩ : Shape).Slices ![51, 0] ⟨2, ![17, 1]⟩ := by decide
theorem cutR4 : (⟨2, ![85, 1]⟩ : Shape).Slices ![68, 0] ⟨2, ![17, 1]⟩ := by decide

/-- The parameters read out of the eight parameter arrays of the two programs. -/
def argParams (A1 : (⟨2, ![1, 17]⟩ : Shape).Idx → EReal) (A2 : (⟨1, ![17]⟩ : Shape).Idx → EReal)
    (A3 : (⟨2, ![34, 17]⟩ : Shape).Idx → EReal) (A4 : (⟨1, ![17]⟩ : Shape).Idx → EReal)
    (A5 : (⟨2, ![68, 17]⟩ : Shape).Idx → EReal) (A6 : (⟨1, ![17]⟩ : Shape).Idx → EReal)
    (A7 : (⟨2, ![85, 1]⟩ : Shape).Idx → EReal) (A8 : (⟨1, ![1]⟩ : Shape).Idx → EReal) : Params :=
  paramsOf A1 A2 (extractStridedSlice ⟨2, ![17, 17]⟩ ![0, 0] A3 cutM0) (extractStridedSlice ⟨2, ![17, 17]⟩ ![17, 0] A3 cutM1) A4
    (extractStridedSlice ⟨2, ![17, 17]⟩ ![0, 0] A5 cutU0) (extractStridedSlice ⟨2, ![17, 17]⟩ ![17, 0] A5 cutU1)
    (extractStridedSlice ⟨2, ![17, 17]⟩ ![34, 0] A5 cutU2) (extractStridedSlice ⟨2, ![17, 17]⟩ ![51, 0] A5 cutU3) A6
    (extractStridedSlice ⟨2, ![17, 1]⟩ ![0, 0] A7 cutR0) (extractStridedSlice ⟨2, ![17, 1]⟩ ![17, 0] A7 cutR1)
    (extractStridedSlice ⟨2, ![17, 1]⟩ ![34, 0] A7 cutR2) (extractStridedSlice ⟨2, ![17, 1]⟩ ![51, 0] A7 cutR3)
    (extractStridedSlice ⟨2, ![17, 1]⟩ ![68, 0] A7 cutR4) A8

/-- The result array: row r holds the network's value on row r of the input array. -/
def G (A0 : (⟨2, ![1048576, 5]⟩ : Shape).Idx → EReal) (P : Params) : (⟨2, ![1048576, 1]⟩ : Shape).Idx → EReal :=
  fun i => net P (fun c => A0 (ix2 (i 0) c))

theorem G_ix2 (A0 : (⟨2, ![1048576, 5]⟩ : Shape).Idx → EReal) (P : Params) (r : Fin 1048576) (q : Fin 1) :
    G A0 P (ix2 r q) = net P (fun c => A0 (ix2 r c)) := rfl

end Cert.MP

end
-- ==== Proof.KLayers.lean ====
/-
  The kernel body's operations read one row at a time.

  A block holds 2048 rows.  Every operation of the body acts on each row by itself: a feature column is a
  pointwise expression of one input column and two broadcast vectors; a product with a 17 × 17 weight block is, at row
  p and column j, the sum over k of the row's entry k times the block's entry (k, j) (the accumulator is the zero
  splat, and the roundings to bf16 in front of the product are the identity on the extended reals); a bias is one
  vector laid along every row.  So each payload, read at row p, is the corresponding function of Row.lean applied to
  its operands' rows p.
-/
import proofs.«165608_j79104707658373_2_alg».proof.Proof.Gen.KernelIdeal.Skeleton
import proofs.«165608_j79104707658373_2_alg».proof.Proof.Row
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.KernelIdeal.Rows

open Cert.KernelIdeal Cert.KernelIdeal.Gen Idealize.ShloMosaic Idealize.ShloMosaic.ValueIdx Cert.MP

/-! ## The layout operations and the products at an index -/

/-- A product of a block with a 17 × 17 weight block into the zero accumulator, at row p and column j. -/
theorem kdot {φ₁ φ₂ : FTy} (X : FVec Ideal S2048x17 φ₁) (W : FVec Ideal S17x17 φ₂) (p : Fin 2048) (j : Fin 17) :
    matmul dot_S2048x17_S17x17_S2048x17_1_0_0_1_n_n none X W (constant (F := Ideal) S2048x17 .f32 0x00000000#32) (ix2 p j)
      = ∑ k : Fin 17, X (ix2 p k) * W (ix2 k j) := by
  rw [matmul_zero_eq_dotGeneral]
  exact StackMember.dotGeneral_plain_apply none X W p j

/-- A product of a block with a 17 × 1 readout column into the zero accumulator, at row p. -/
theorem kdot1 {φ₁ φ₂ : FTy} (X : FVec Ideal S2048x17 φ₁) (W : FVec Ideal S17x1 φ₂) (p : Fin 2048) (q : Fin 1) :
    matmul dot_S2048x17_S17x1_S2048x1_1_0_0_1_n_n none X W (constant (F := Ideal) S2048x1 .f32 0x00000000#32) (ix2 p q)
      = ∑ k : Fin 17, X (ix2 p k) * W (ix2 k q) := by
  rw [matmul_zero_eq_dotGeneral]
  exact StackMember.dotGeneral_plain_apply none X W p q

/-- A 17-vector laid along every row of the block. -/
theorem biasRow (b : Vec Ideal S17 .f32) (p : Fin 2048) (j : Fin 17) :
    broadcastTo S2048x17 (shapeCast S1x17 b shapeCasts_S17_S1x17) broadcasts_S1x17_S2048x17 (ix2 p j) = b (ix1 j) := by
  rw [broadcastTo_1b_ab_apply, shapeCast_a_1a_apply]

/-- The one row of a 1 × 17 array, flattened and laid along every row of the block. -/
theorem weightRow (w : Vec Ideal S1x17 .f32) (p : Fin 2048) (j : Fin 17) :
    broadcastTo S2048x17 (shapeCast S1x17 (shapeCast S17 w shapeCasts_S1x17_S17) shapeCasts_S17_S1x17) broadcasts_S1x17_S2048x17 (ix2 p j)
      = w (ix2 (0 : Fin 1) j) := by
  rw [broadcastTo_1b_ab_apply, shapeCast_a_1a_apply, shapeCast_1a_a_apply]

/-- One column laid along the seventeen columns of the block. -/
theorem colBcast (v : Vec Ideal S2048x1 .f32) (p : Fin 2048) (j : Fin 17) :
    broadcastTo S2048x17 v broadcasts_S2048x1_S2048x17 (ix2 p j) = v (ix2 p (0 : Fin 1)) := by
  refine broadcastTo_apply v _ (ix2 p j) (ix2 p (0 : Fin 1)) fun ax => ?_
  match ax with
  | ⟨0, _⟩ => rfl
  | ⟨1, _⟩ => rfl

/-- The one entry of a 1-vector laid along the block's one output column. -/
theorem scalarBcast (v : Vec Ideal S1 .f32) (p : Fin 2048) (q : Fin 1) :
    broadcastTo S2048x1 (shapeCast S1x1 v shapeCasts_S1_S1x1) broadcasts_S1x1_S2048x1 (ix2 p q) = v (ix1 (0 : Fin 1)) := by
  rw [broadcastTo_1b_ab_apply, shapeCast_a_1a_apply]
  exact congrArg (fun z => v (ix1 z)) (Subsingleton.elim q 0)

/-- A shape cast to the same shape changes nothing. -/
theorem castSelf (w : Vec Ideal S17x17 .f32) : shapeCast S17x17 w shapeCasts_S17x17_S17x17 = w := shapeCast_self w _
theorem castSelf1 (w : Vec Ideal S17x1 .f32) : shapeCast S17x1 w shapeCasts_S17x1_S17x1 = w := shapeCast_self w _

/-! ## The body's three kinds of layer, as the payloads spell them -/

/-- A block times a weight block, as every payload spells it: both operands rounded to bf16 (the identity here),
    accumulated into the zero splat. -/
abbrev mm (X : FVec Ideal S2048x17 .f32) (W : FVec Ideal S17x17 .f32) : FVec Ideal S2048x17 .f32 :=
  matmul dot_S2048x17_S17x17_S2048x17_1_0_0_1_n_n none (truncf .bf16 X bitsLt_bf16_f32) (truncf .bf16 W bitsLt_bf16_f32)
    (constant (F := Ideal) S2048x17 .f32 0x00000000#32)

/-- A block times a readout column, likewise. -/
abbrev mm1 (X : FVec Ideal S2048x17 .f32) (W : FVec Ideal S17x1 .f32) : FVec Ideal S2048x1 .f32 :=
  matmul dot_S2048x17_S17x1_S2048x1_1_0_0_1_n_n none (truncf .bf16 X bitsLt_bf16_f32) (truncf .bf16 W bitsLt_bf16_f32)
    (constant (F := Ideal) S2048x1 .f32 0x00000000#32)

/-- A bias vector laid along the rows. -/
abbrev bias (b : Vec Ideal S17 .f32) : FVec Ideal S2048x17 .f32 :=
  broadcastTo S2048x17 (shapeCast S1x17 b shapeCasts_S17_S1x17) broadcasts_S1x17_S2048x17

theorem mm_row (X : FVec Ideal S2048x17 .f32) (W : FVec Ideal S17x17 .f32) (p : Fin 2048) : row (mm X W) p = lin (mat W) (row X p) := by
  funext j
  exact kdot _ _ p j

theorem mm1_at (X : FVec Ideal S2048x17 .f32) (W : FVec Ideal S17x1 .f32) (p : Fin 2048) :
    mm1 X W (ix2 p (0 : Fin 1)) = dot (col W) (row X p) := kdot1 _ _ p 0

theorem bias_row (b : Vec Ideal S17 .f32) (p : Fin 2048) : row (bias b) p = vec b := by
  funext j
  exact biasRow b p j

/-- Row p of a pointwise sum is the sum of the rows p. -/
theorem addf_row (X Y : FVec Ideal S2048x17 .f32) (p : Fin 2048) : row (addf X Y) p = fun j => row X p j + row Y p j := rfl

/-- Row p of a pointwise tanh is the tanh of row p. -/
theorem tanh_row (X : FVec Ideal S2048x17 .f32) (p : Fin 2048) : row (tanh X) p = fun j => Ideal.tanh (row X p j) := rfl

/-- The feature layer at row p: tanh (x · w_f + b_f) of the row's one input entry. -/
theorem feat_row (v0 : Vec Ideal S1x17 .f32) (v2 : Vec Ideal S17 .f32) (v3 : Vec Ideal S2048x1 .f32) (p : Fin 2048) :
    row (k0_pay3 v0 v2 v3) p = feat (row0 v0) (vec v2) (v3 (ix2 p (0 : Fin 1))) := by
  funext j
  show Ideal.tanh (broadcastTo S2048x17 v3 broadcasts_S2048x1_S2048x17 (ix2 p j)
      * broadcastTo S2048x17 (shapeCast S1x17 (shapeCast S17 v0 shapeCasts_S1x17_S17) shapeCasts_S17_S1x17) broadcasts_S1x17_S2048x17 (ix2 p j)
      + broadcastTo S2048x17 (shapeCast S1x17 v2 shapeCasts_S17_S1x17) broadcasts_S1x17_S2048x17 (ix2 p j)) = _
  rw [colBcast, weightRow, biasRow]
  rfl

/-- The message layer at row p. -/
theorem msg_row (X Y : FVec Ideal S2048x17 .f32) (W1 W2 : FVec Ideal S17x17 .f32) (b : Vec Ideal S17 .f32) (p : Fin 2048) :
    row (tanh (addf (addf (mm X W1) (mm Y W2)) (bias b))) p = msg (mat W1) (mat W2) (vec b) (row X p) (row Y p) := by
  rw [tanh_row, addf_row, addf_row, mm_row, mm_row, bias_row]
  rfl

/-- The update layer at row p. -/
theorem upd_row (M1 M2 U Fe : FVec Ideal S2048x17 .f32) (W1 W2 W3 W4 : FVec Ideal S17x17 .f32) (b : Vec Ideal S17 .f32) (p : Fin 2048) :
    row (tanh (addf (addf (addf (addf (mm M1 W1) (mm M2 W2)) (mm U W3)) (mm Fe W4)) (bias b))) p
      = upd (mat W1) (mat W2) (mat W3) (mat W4) (vec b) (row M1 p) (row M2 p) (row U p) (row Fe p) := by
  rw [tanh_row, addf_row, addf_row, addf_row, addf_row, mm_row, mm_row, mm_row, mm_row, bias_row]
  rfl

/-- The message-free update at row p. -/
theorem updSelf_row (Fe : FVec Ideal S2048x17 .f32) (W3 W4 : FVec Ideal S17x17 .f32) (b : Vec Ideal S17 .f32) (p : Fin 2048) :
    row (tanh (addf (addf (mm Fe W3) (mm Fe W4)) (bias b))) p = updSelf (mat W3) (mat W4) (vec b) (row Fe p) := by
  rw [tanh_row, addf_row, addf_row, mm_row, mm_row, bias_row]
  rfl

/-- The readout at row p. -/
theorem readout_at (U1 U2 U3 U4 U5 : FVec Ideal S2048x17 .f32) (r1 r2 r3 r4 r5 : FVec Ideal S17x1 .f32) (br : Vec Ideal S1 .f32)
    (p : Fin 2048) (q : Fin 1) :
    addf (addf (addf (addf (addf (mm1 U1 r1) (mm1 U2 r2)) (mm1 U3 r3)) (mm1 U4 r4)) (mm1 U5 r5))
        (broadcastTo S2048x1 (shapeCast S1x1 br shapeCasts_S1_S1x1) broadcasts_S1x1_S2048x1) (ix2 p q)
      = dot (col r1) (row U1 p) + dot (col r2) (row U2 p) + dot (col r3) (row U3 p) + dot (col r4) (row U4 p)
        + dot (col r5) (row U5 p) + br (ix1 (0 : Fin 1)) := by
  obtain rfl : q = 0 := Subsingleton.elim _ _
  show mm1 U1 r1 (ix2 p 0) + mm1 U2 r2 (ix2 p 0) + mm1 U3 r3 (ix2 p 0) + mm1 U4 r4 (ix2 p 0) + mm1 U5 r5 (ix2 p 0)
      + broadcastTo S2048x1 (shapeCast S1x1 br shapeCasts_S1_S1x1) broadcasts_S1x1_S2048x1 (ix2 p 0) = _
  rw [mm1_at, mm1_at, mm1_at, mm1_at, mm1_at, scalarBcast]

/-! ## The payloads -/

theorem pay3_row (v0 : Vec Ideal S1x17 .f32) (v2 : Vec Ideal S17 .f32) (v : Vec Ideal S2048x1 .f32) (p : Fin 2048) :
    row (k0_pay3 v0 v2 v) p = feat (row0 v0) (vec v2) (v (ix2 p (0 : Fin 1))) := feat_row v0 v2 v p
theorem pay4_row (v0 : Vec Ideal S1x17 .f32) (v2 : Vec Ideal S17 .f32) (v : Vec Ideal S2048x1 .f32) (p : Fin 2048) :
    row (k0_pay4 v0 v2 v) p = feat (row0 v0) (vec v2) (v (ix2 p (0 : Fin 1))) := feat_row v0 v2 v p
theorem pay5_row (v0 : Vec Ideal S1x17 .f32) (v2 : Vec Ideal S17 .f32) (v : Vec Ideal S2048x1 .f32) (p : Fin 2048) :
    row (k0_pay5 v0 v2 v) p = feat (row0 v0) (vec v2) (v (ix2 p (0 : Fin 1))) := feat_row v0 v2 v p
theorem pay6_row (v0 : Vec Ideal S1x17 .f32) (v2 : Vec Ideal S17 .f32) (v : Vec Ideal S2048x1 .f32) (p : Fin 2048) :
    row (k0_pay6 v0 v2 v) p = feat (row0 v0) (vec v2) (v (ix2 p (0 : Fin 1))) := feat_row v0 v2 v p
theorem pay9_row (v0 : Vec Ideal S1x17 .f32) (v2 : Vec Ideal S17 .f32) (v : Vec Ideal S2048x1 .f32) (p : Fin 2048) :
    row (k0_pay9 (k0_pay7 v0 v) (k0_pay8 v2)) p = feat (row0 v0) (vec v2) (v (ix2 p (0 : Fin 1))) := feat_row v0 v2 v p

theorem pay12_row (X Y : FVec Ideal S2048x17 .f32) (w1 w2 : Vec Ideal S17x17 .f32) (b : Vec Ideal S17 .f32) (p : Fin 2048) :
    row (k0_pay12 X Y w1 w2 b) p = msg (mat w1) (mat w2) (vec b) (row X p) (row Y p) :=
  (msg_row X Y (k0_pay10 w1) (k0_pay11 w2) b p).trans (by rw [show k0_pay10 w1 = w1 from castSelf w1, show k0_pay11 w2 = w2 from castSelf w2])
theorem pay13_row (X Y : FVec Ideal S2048x17 .f32) (w1 w2 : Vec Ideal S17x17 .f32) (b : Vec Ideal S17 .f32) (p : Fin 2048) :
    row (k0_pay13 X Y w1 w2 b) p = msg (mat w1) (mat w2) (vec b) (row Y p) (row X p) :=
  (msg_row Y X (k0_pay10 w1) (k0_pay11 w2) b p).trans (by rw [show k0_pay10 w1 = w1 from castSelf w1, show k0_pay11 w2 = w2 from castSelf w2])
theorem pay14_row (X Y : FVec Ideal S2048x17 .f32) (w1 w2 : Vec Ideal S17x17 .f32) (b : Vec Ideal S17 .f32) (p : Fin 2048) :
    row (k0_pay14 X Y w1 w2 b) p = msg (mat w1) (mat w2) (vec b) (row X p) (row Y p) :=
  (msg_row X Y (k0_pay10 w1) (k0_pay11 w2) b p).trans (by rw [show k0_pay10 w1 = w1 from castSelf w1, show k0_pay11 w2 = w2 from castSelf w2])
theorem pay16_row (X Y : FVec Ideal S2048x17 .f32) (w1 w2 : Vec Ideal S17x17 .f32) (b : Vec Ideal S17 .f32) (p : Fin 2048) :
    row (k0_pay16 b (k0_pay15 X Y w1 w2)) p = msg (mat w1) (mat w2) (vec b) (row Y p) (row X p) :=
  (msg_row Y X (k0_pay10 w1) (k0_pay11 w2) b p).trans (by rw [show k0_pay10 w1 = w1 from castSelf w1, show k0_pay11 w2 = w2 from castSelf w2])
theorem pay17_row (X Y : FVec Ideal S2048x17 .f32) (W1 W2 : FVec Ideal S17x17 .f32) (b : Vec Ideal S17 .f32) (p : Fin 2048) :
    row (k0_pay17 X Y W1 W2 b) p = msg (mat W1) (mat W2) (vec b) (row X p) (row Y p) := msg_row X Y W1 W2 b p
theorem pay18_row (X Y : FVec Ideal S2048x17 .f32) (W1 W2 : FVec Ideal S17x17 .f32) (b : Vec Ideal S17 .f32) (p : Fin 2048) :
    row (k0_pay18 X Y W1 W2 b) p = msg (mat W1) (mat W2) (vec b) (row Y p) (row X p) := msg_row Y X W1 W2 b p
theorem pay19_row (X Y : FVec Ideal S2048x17 .f32) (W1 W2 : FVec Ideal S17x17 .f32) (b : Vec Ideal S17 .f32) (p : Fin 2048) :
    row (k0_pay19 X Y W1 W2 b) p = msg (mat W1) (mat W2) (vec b) (row Y p) (row X p) := msg_row Y X W1 W2 b p
theorem pay20_row (X Y : FVec Ideal S2048x17 .f32) (W1 W2 : FVec Ideal S17x17 .f32) (b : Vec Ideal S17 .f32) (p : Fin 2048) :
    row (k0_pay20 X Y W1 W2 b) p = msg (mat W1) (mat W2) (vec b) (row X p) (row Y p) := msg_row X Y W1 W2 b p

theorem pay25_row (Fe M1 M2 : FVec Ideal S2048x17 .f32) (W1 : FVec Ideal S17x17 .f32) (w2 w3 w4 : Vec Ideal S17x17 .f32) (b : Vec Ideal S17 .f32) (p : Fin 2048) :
    row (k0_pay25 Fe M1 M2 W1 w2 w3 w4 b) p = upd (mat W1) (mat w2) (mat w3) (mat w4) (vec b) (row M1 p) (row M2 p) (row Fe p) (row Fe p) :=
  (upd_row M1 M2 Fe Fe W1 (k0_pay22 w2) (k0_pay23 w3) (k0_pay24 w4) b p).trans (by
    rw [show k0_pay22 w2 = w2 from castSelf w2, show k0_pay23 w3 = w3 from castSelf w3, show k0_pay24 w4 = w4 from castSelf w4])
theorem pay26_row (Fe M1 M2 : FVec Ideal S2048x17 .f32) (W1 : FVec Ideal S17x17 .f32) (w2 w3 w4 : Vec Ideal S17x17 .f32) (b : Vec Ideal S17 .f32) (p : Fin 2048) :
    row (k0_pay26 Fe M1 M2 W1 w2 w3 w4 b) p = upd (mat W1) (mat w2) (mat w3) (mat w4) (vec b) (row M1 p) (row M2 p) (row Fe p) (row Fe p) :=
  (upd_row M1 M2 Fe Fe W1 (k0_pay22 w2) (k0_pay23 w3) (k0_pay24 w4) b p).trans (by
    rw [show k0_pay22 w2 = w2 from castSelf w2, show k0_pay23 w3 = w3 from castSelf w3, show k0_pay24 w4 = w4 from castSelf w4])
theorem pay27_row (Fe M1 M2 : FVec Ideal S2048x17 .f32) (W1 W2 W3 W4 : FVec Ideal S17x17 .f32) (b : Vec Ideal S17 .f32) (p : Fin 2048) :
    row (k0_pay27 Fe M1 M2 W1 W2 W3 W4 b) p = upd (mat W1) (mat W2) (mat W3) (mat W4) (vec b) (row M1 p) (row M2 p) (row Fe p) (row Fe p) :=
  upd_row M1 M2 Fe Fe W1 W2 W3 W4 b p
theorem pay28_row (Fe M1 M2 : FVec Ideal S2048x17 .f32) (W1 W2 W3 W4 : FVec Ideal S17x17 .f32) (b : Vec Ideal S17 .f32) (p : Fin 2048) :
    row (k0_pay28 Fe M1 M2 W1 W2 W3 W4 b) p = upd (mat W1) (mat W2) (mat W3) (mat W4) (vec b) (row M1 p) (row M2 p) (row Fe p) (row Fe p) :=
  upd_row M1 M2 Fe Fe W1 W2 W3 W4 b p
theorem pay29_row (Fe : FVec Ideal S2048x17 .f32) (W3 W4 : FVec Ideal S17x17 .f32) (b : Vec Ideal S17 .f32) (p : Fin 2048) :
    row (k0_pay29 Fe W3 W4 b) p = updSelf (mat W3) (mat W4) (vec b) (row Fe p) := updSelf_row Fe W3 W4 b p

theorem pay1_at (U1 U2 U3 U4 U5 : FVec Ideal S2048x17 .f32) (r1 r2 r3 r4 r5 : Vec Ideal S17x1 .f32) (br : Vec Ideal S1 .f32)
    (p : Fin 2048) (q : Fin 1) :
    k0_pay1 U1 U2 U3 U4 U5 r1 r2 r3 r4 r5 br (ix2 p q)
      = dot (col r1) (row U1 p) + dot (col r2) (row U2 p) + dot (col r3) (row U3 p) + dot (col r4) (row U4 p)
        + dot (col r5) (row U5 p) + br (ix1 (0 : Fin 1)) :=
  (readout_at U1 U2 U3 U4 U5 (shapeCast S17x1 r1 shapeCasts_S17x1_S17x1) (shapeCast S17x1 r2 shapeCasts_S17x1_S17x1)
    (shapeCast S17x1 r3 shapeCasts_S17x1_S17x1) (shapeCast S17x1 r4 shapeCasts_S17x1_S17x1) (shapeCast S17x1 r5 shapeCasts_S17x1_S17x1) br p q).trans (by
    rw [castSelf1, castSelf1, castSelf1, castSelf1, castSelf1])

end Cert.KernelIdeal.Rows

end
-- ==== Proof.KBody.lean ====
/-
  The kernel body on one block: row p of the block it stores is the network of Row.lean on row p of the input block,
  with the parameters read from the sixteen parameter blocks.

  The body loads each parameter block whole, and the input block one column at a time (column i of the 2048 × 5
  block is the input number of node i); it stores the readout whole.  Reading the stored payload at row p, from
  the outside in, every payload is one of the layers of KLayers.lean at row p.
-/
import proofs.«165608_j79104707658373_2_alg».proof.Proof.Gen.KernelIdeal.Frame
import proofs.«165608_j79104707658373_2_alg».proof.Proof.KLayers

noncomputable section

namespace Cert.KernelIdeal.Rows

open Cert.KernelIdeal Cert.KernelIdeal.Gen Idealize.ShloMosaic Idealize.ShloMosaic.ValueIdx Cert.MP

theorem zeros2 : (![0, 0] : Fin 2 → Nat) = fun _ => 0 := funext fun a => by fin_cases a <;> rfl
theorem zeros1 : (![0] : Fin 1 → Nat) = fun _ => 0 := funext fun a => by fin_cases a; rfl

/-! ## The five column loads of the input block -/

theorem ldcol0 (x0 : Vec Ideal S2048x5 .f32) (p : Fin 2048) : View.ld x0 r0_2 (ix2 p (0 : Fin 1)) = x0 (ix2 p (0 : Fin 5)) := by
  refine congrArg x0 (funext fun a => Fin.ext ?_)
  match a with
  | ⟨0, _⟩ => show 0 + 1 * p.val = p.val; omega
  | ⟨1, _⟩ => rfl
theorem ldcol1 (x0 : Vec Ideal S2048x5 .f32) (p : Fin 2048) : View.ld x0 r0_3 (ix2 p (0 : Fin 1)) = x0 (ix2 p (1 : Fin 5)) := by
  refine congrArg x0 (funext fun a => Fin.ext ?_)
  match a with
  | ⟨0, _⟩ => show 0 + 1 * p.val = p.val; omega
  | ⟨1, _⟩ => rfl
theorem ldcol2 (x0 : Vec Ideal S2048x5 .f32) (p : Fin 2048) : View.ld x0 r0_4 (ix2 p (0 : Fin 1)) = x0 (ix2 p (2 : Fin 5)) := by
  refine congrArg x0 (funext fun a => Fin.ext ?_)
  match a with
  | ⟨0, _⟩ => show 0 + 1 * p.val = p.val; omega
  | ⟨1, _⟩ => rfl
theorem ldcol3 (x0 : Vec Ideal S2048x5 .f32) (p : Fin 2048) : View.ld x0 r0_5 (ix2 p (0 : Fin 1)) = x0 (ix2 p (3 : Fin 5)) := by
  refine congrArg x0 (funext fun a => Fin.ext ?_)
  match a with
  | ⟨0, _⟩ => show 0 + 1 * p.val = p.val; omega
  | ⟨1, _⟩ => rfl
theorem ldcol4 (x0 : Vec Ideal S2048x5 .f32) (p : Fin 2048) : View.ld x0 r0_6 (ix2 p (0 : Fin 1)) = x0 (ix2 p (4 : Fin 5)) := by
  refine congrArg x0 (funext fun a => Fin.ext ?_)
  match a with
  | ⟨0, _⟩ => show 0 + 1 * p.val = p.val; omega
  | ⟨1, _⟩ => rfl

/-- The 17 × 17 weight blocks pass through a shape cast to their own shape. -/
theorem pay10_eq (w : Vec Ideal S17x17 .f32) : k0_pay10 w = w := castSelf w
theorem pay11_eq (w : Vec Ideal S17x17 .f32) : k0_pay11 w = w := castSelf w
theorem pay21_eq (w : Vec Ideal S17x17 .f32) : k0_pay21 w = w := castSelf w
theorem pay22_eq (w : Vec Ideal S17x17 .f32) : k0_pay22 w = w := castSelf w
theorem pay23_eq (w : Vec Ideal S17x17 .f32) : k0_pay23 w = w := castSelf w
theorem pay24_eq (w : Vec Ideal S17x17 .f32) : k0_pay24 w = w := castSelf w

/-! ## The stored block at a row -/

theorem body_at (x0 : Vec Ideal S2048x5 .f32) (x1 : Vec Ideal S1x17 .f32) (x2 : Vec Ideal S17 .f32) (x3 : Vec Ideal S17x17 .f32) (x4 : Vec Ideal S17x17 .f32) (x5 : Vec Ideal S17 .f32) (x6 : Vec Ideal S17x17 .f32) (x7 : Vec Ideal S17x17 .f32) (x8 : Vec Ideal S17x17 .f32) (x9 : Vec Ideal S17x17 .f32) (x10 : Vec Ideal S17 .f32) (x11 : Vec Ideal S17x1 .f32) (x12 : Vec Ideal S17x1 .f32) (x13 : Vec Ideal S17x1 .f32) (x14 : Vec Ideal S17x1 .f32) (x15 : Vec Ideal S17x1 .f32) (x16 : Vec Ideal S1 .f32) (p : Fin 2048) (q : Fin 1) :
    out0_17 x0 x1 x2 x3 x4 x5 x6 x7 x8 x9 x10 x11 x12 x13 x14 x15 x16 (ix2 p q)
      = net (paramsOf x1 x2 x3 x4 x5 x6 x7 x8 x9 x10 x11 x12 x13 x14 x15 x16) (fun c => x0 (ix2 p c)) := by
  unfold out0_17
  rw [View.canon_unit_zero zeros2]
  simp only [View.ld_unit_zero (S := S1x17) zeros2, View.ld_unit_zero (S := S17) zeros1, View.ld_unit_zero (S := S17x17) zeros2,
    View.ld_unit_zero (S := S17x1) zeros2, View.ld_unit_zero (S := S1) zeros1]
  rw [pay1_at]
  rw [pay25_row, pay26_row, pay27_row, pay28_row, pay29_row]
  rw [pay12_row, pay20_row, pay13_row, pay14_row, pay16_row, pay17_row, pay18_row, pay19_row]
  rw [pay3_row, pay4_row, pay5_row, pay6_row, pay9_row]
  rw [ldcol0, ldcol1, ldcol2, ldcol3, ldcol4, pay10_eq, pay11_eq, pay21_eq, pay22_eq, pay23_eq, pay24_eq]
  rfl

/-- The stored block as one function of the block's index. -/
theorem body_fn (x0 : Vec Ideal S2048x5 .f32) (x1 : Vec Ideal S1x17 .f32) (x2 : Vec Ideal S17 .f32) (x3 : Vec Ideal S17x17 .f32) (x4 : Vec Ideal S17x17 .f32) (x5 : Vec Ideal S17 .f32) (x6 : Vec Ideal S17x17 .f32) (x7 : Vec Ideal S17x17 .f32) (x8 : Vec Ideal S17x17 .f32) (x9 : Vec Ideal S17x17 .f32) (x10 : Vec Ideal S17 .f32) (x11 : Vec Ideal S17x1 .f32) (x12 : Vec Ideal S17x1 .f32) (x13 : Vec Ideal S17x1 .f32) (x14 : Vec Ideal S17x1 .f32) (x15 : Vec Ideal S17x1 .f32) (x16 : Vec Ideal S1 .f32) :
    out0_17 x0 x1 x2 x3 x4 x5 x6 x7 x8 x9 x10 x11 x12 x13 x14 x15 x16
      = fun y : S2048x1.Idx => net (paramsOf x1 x2 x3 x4 x5 x6 x7 x8 x9 x10 x11 x12 x13 x14 x15 x16) (fun c => x0 (ix2 (y 0) c)) := by
  funext y
  obtain ⟨p, q, rfl⟩ : ∃ (p : Fin 2048) (q : Fin 1), y = ix2 p q := ⟨y 0, y 1, eq_ix2 y⟩
  exact body_at x0 x1 x2 x3 x4 x5 x6 x7 x8 x9 x10 x11 x12 x13 x14 x15 x16 p q

end Cert.KernelIdeal.Rows

end
-- ==== Proof.KBlocks.lean ====
/-
  The blocks the kernel body is given at a grid point.

  The grid has 512 points; point t works on rows 2048·t … 2048·t + 2047 of the input array and of the result.  The
  sixteen parameter windows do not move: their block is the whole array at every point, and for eleven of them that
  array is a 17-row cut of one of the three stacked weight arrays, made by the host before the launch.
-/
import proofs.«165608_j79104707658373_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Rows

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The block indices, decided over the 512 grid points -/

theorem idx0 : ∀ t : Fin cfg0.N, win0_0.index t (0 : Fin 2) = t.val ∧ win0_0.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 1) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 1) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 1) = 0 :=
  (by decide +kernel : ∀ t : Fin grid0.N, _)

/-! ## The weight cuts the host makes before the launch -/

theorem V_main_v0 (c : Dev nD) : (V m c main_v0 : S17x17.Idx → EReal)
    = extractStridedSlice S17x17 ![0, 0] (m ((c : Thread nD τ).loc main_arg3)) slices_S34x17_S17x17_0_0 := by
  dsimp only [Gen.V, Gen.hostOps0]; after_results
theorem V_main_v1 (c : Dev nD) : (V m c main_v1 : S17x17.Idx → EReal)
    = extractStridedSlice S17x17 ![17, 0] (m ((c : Thread nD τ).loc main_arg3)) slices_S34x17_S17x17_17_0 := by
  dsimp only [Gen.V, Gen.hostOps0]; after_results
theorem V_main_v2 (c : Dev nD) : (V m c main_v2 : S17x17.Idx → EReal)
    = extractStridedSlice S17x17 ![0, 0] (m ((c : Thread nD τ).loc main_arg5)) slices_S68x17_S17x17_0_0 := by
  dsimp only [Gen.V, Gen.hostOps0]; after_results
theorem V_main_v3 (c : Dev nD) : (V m c main_v3 : S17x17.Idx → EReal)
    = extractStridedSlice S17x17 ![17, 0] (m ((c : Thread nD τ).loc main_arg5)) slices_S68x17_S17x17_17_0 := by
  dsimp only [Gen.V, Gen.hostOps0]; after_results
theorem V_main_v4 (c : Dev nD) : (V m c main_v4 : S17x17.Idx → EReal)
    = extractStridedSlice S17x17 ![34, 0] (m ((c : Thread nD τ).loc main_arg5)) slices_S68x17_S17x17_34_0 := by
  dsimp only [Gen.V, Gen.hostOps0]; after_results
theorem V_main_v5 (c : Dev nD) : (V m c main_v5 : S17x17.Idx → EReal)
    = extractStridedSlice S17x17 ![51, 0] (m ((c : Thread nD τ).loc main_arg5)) slices_S68x17_S17x17_51_0 := by
  dsimp only [Gen.V, Gen.hostOps0]; after_results
theorem V_main_v6 (c : Dev nD) : (V m c main_v6 : S17x1.Idx → EReal)
    = extractStridedSlice S17x1 ![0, 0] (m ((c : Thread nD τ).loc main_arg7)) slices_S85x1_S17x1_0_0 := by
  dsimp only [Gen.V, Gen.hostOps0]; after_results
theorem V_main_v7 (c : Dev nD) : (V m c main_v7 : S17x1.Idx → EReal)
    = extractStridedSlice S17x1 ![17, 0] (m ((c : Thread nD τ).loc main_arg7)) slices_S85x1_S17x1_17_0 := by
  dsimp only [Gen.V, Gen.hostOps0]; after_results
theorem V_main_v8 (c : Dev nD) : (V m c main_v8 : S17x1.Idx → EReal)
    = extractStridedSlice S17x1 ![34, 0] (m ((c : Thread nD τ).loc main_arg7)) slices_S85x1_S17x1_34_0 := by
  dsimp only [Gen.V, Gen.hostOps0]; after_results
theorem V_main_v9 (c : Dev nD) : (V m c main_v9 : S17x1.Idx → EReal)
    = extractStridedSlice S17x1 ![51, 0] (m ((c : Thread nD τ).loc main_arg7)) slices_S85x1_S17x1_51_0 := by
  dsimp only [Gen.V, Gen.hostOps0]; after_results
theorem V_main_v10 (c : Dev nD) : (V m c main_v10 : S17x1.Idx → EReal)
    = extractStridedSlice S17x1 ![68, 0] (m ((c : Thread nD τ).loc main_arg7)) slices_S85x1_S17x1_68_0 := by
  dsimp only [Gen.V, Gen.hostOps0]; after_results

/-! ## The parameter windows' blocks are their whole arrays -/

theorem blk1 (c : Dev nD) (t : Fin cfg0.N) : iblk m c 1 t = m ((c : Thread nD τ).loc main_arg1) := by
  obtain ⟨e0, e1⟩ := idx1 t
  funext y
  show V m c main_arg1 (((cfg0.win 1).blk t).view.emb y) = _
  rw [V_main_arg1 m c]
  refine congrArg _ (funext fun a => Fin.ext ?_)
  match a with
  | ⟨0, _⟩ => show win0_1.index t (0 : Fin 2) * 1 + 1 * (y 0).val = (y 0).val; omega
  | ⟨1, _⟩ => show win0_1.index t (1 : Fin 2) * 17 + 1 * (y 1).val = (y 1).val; omega
theorem blk2 (c : Dev nD) (t : Fin cfg0.N) : iblk m c 2 t = m ((c : Thread nD τ).loc main_arg2) := by
  have e0 := idx2 t
  funext y
  show V m c main_arg2 (((cfg0.win 2).blk t).view.emb y) = _
  rw [V_main_arg2 m c]
  refine congrArg _ (funext fun a => Fin.ext ?_)
  match a with
  | ⟨0, _⟩ => show win0_2.index t (0 : Fin 1) * 17 + 1 * (y 0).val = (y 0).val; omega
theorem blk3 (c : Dev nD) (t : Fin cfg0.N) : iblk m c 3 t = extractStridedSlice S17x17 ![0, 0] (m ((c : Thread nD τ).loc main_arg3)) slices_S34x17_S17x17_0_0 := by
  obtain ⟨e0, e1⟩ := idx3 t
  funext y
  show V m c main_v0 (((cfg0.win 3).blk t).view.emb y) = _
  rw [V_main_v0 m c]
  refine congrArg _ (funext fun a => Fin.ext ?_)
  match a with
  | ⟨0, _⟩ => show win0_3.index t (0 : Fin 2) * 17 + 1 * (y 0).val = (y 0).val; omega
  | ⟨1, _⟩ => show win0_3.index t (1 : Fin 2) * 17 + 1 * (y 1).val = (y 1).val; omega
theorem blk4 (c : Dev nD) (t : Fin cfg0.N) : iblk m c 4 t = extractStridedSlice S17x17 ![17, 0] (m ((c : Thread nD τ).loc main_arg3)) slices_S34x17_S17x17_17_0 := by
  obtain ⟨e0, e1⟩ := idx4 t
  funext y
  show V m c main_v1 (((cfg0.win 4).blk t).view.emb y) = _
  rw [V_main_v1 m c]
  refine congrArg _ (funext fun a => Fin.ext ?_)
  match a with
  | ⟨0, _⟩ => show win0_4.index t (0 : Fin 2) * 17 + 1 * (y 0).val = (y 0).val; omega
  | ⟨1, _⟩ => show win0_4.index t (1 : Fin 2) * 17 + 1 * (y 1).val = (y 1).val; omega
theorem blk5 (c : Dev nD) (t : Fin cfg0.N) : iblk m c 5 t = m ((c : Thread nD τ).loc main_arg4) := by
  have e0 := idx5 t
  funext y
  show V m c main_arg4 (((cfg0.win 5).blk t).view.emb y) = _
  rw [V_main_arg4 m c]
  refine congrArg _ (funext fun a => Fin.ext ?_)
  match a with
  | ⟨0, _⟩ => show win0_5.index t (0 : Fin 1) * 17 + 1 * (y 0).val = (y 0).val; omega
theorem blk6 (c : Dev nD) (t : Fin cfg0.N) : iblk m c 6 t = extractStridedSlice S17x17 ![0, 0] (m ((c : Thread nD τ).loc main_arg5)) slices_S68x17_S17x17_0_0 := by
  obtain ⟨e0, e1⟩ := idx6 t
  funext y
  show V m c main_v2 (((cfg0.win 6).blk t).view.emb y) = _
  rw [V_main_v2 m c]
  refine congrArg _ (funext fun a => Fin.ext ?_)
  match a with
  | ⟨0, _⟩ => show win0_6.index t (0 : Fin 2) * 17 + 1 * (y 0).val = (y 0).val; omega
  | ⟨1, _⟩ => show win0_6.index t (1 : Fin 2) * 17 + 1 * (y 1).val = (y 1).val; omega
theorem blk7 (c : Dev nD) (t : Fin cfg0.N) : iblk m c 7 t = extractStridedSlice S17x17 ![17, 0] (m ((c : Thread nD τ).loc main_arg5)) slices_S68x17_S17x17_17_0 := by
  obtain ⟨e0, e1⟩ := idx7 t
  funext y
  show V m c main_v3 (((cfg0.win 7).blk t).view.emb y) = _
  rw [V_main_v3 m c]
  refine congrArg _ (funext fun a => Fin.ext ?_)
  match a with
  | ⟨0, _⟩ => show win0_7.index t (0 : Fin 2) * 17 + 1 * (y 0).val = (y 0).val; omega
  | ⟨1, _⟩ => show win0_7.index t (1 : Fin 2) * 17 + 1 * (y 1).val = (y 1).val; omega
theorem blk8 (c : Dev nD) (t : Fin cfg0.N) : iblk m c 8 t = extractStridedSlice S17x17 ![34, 0] (m ((c : Thread nD τ).loc main_arg5)) slices_S68x17_S17x17_34_0 := by
  obtain ⟨e0, e1⟩ := idx8 t
  funext y
  show V m c main_v4 (((cfg0.win 8).blk t).view.emb y) = _
  rw [V_main_v4 m c]
  refine congrArg _ (funext fun a => Fin.ext ?_)
  match a with
  | ⟨0, _⟩ => show win0_8.index t (0 : Fin 2) * 17 + 1 * (y 0).val = (y 0).val; omega
  | ⟨1, _⟩ => show win0_8.index t (1 : Fin 2) * 17 + 1 * (y 1).val = (y 1).val; omega
theorem blk9 (c : Dev nD) (t : Fin cfg0.N) : iblk m c 9 t = extractStridedSlice S17x17 ![51, 0] (m ((c : Thread nD τ).loc main_arg5)) slices_S68x17_S17x17_51_0 := by
  obtain ⟨e0, e1⟩ := idx9 t
  funext y
  show V m c main_v5 (((cfg0.win 9).blk t).view.emb y) = _
  rw [V_main_v5 m c]
  refine congrArg _ (funext fun a => Fin.ext ?_)
  match a with
  | ⟨0, _⟩ => show win0_9.index t (0 : Fin 2) * 17 + 1 * (y 0).val = (y 0).val; omega
  | ⟨1, _⟩ => show win0_9.index t (1 : Fin 2) * 17 + 1 * (y 1).val = (y 1).val; omega
theorem blk10 (c : Dev nD) (t : Fin cfg0.N) : iblk m c 10 t = m ((c : Thread nD τ).loc main_arg6) := by
  have e0 := idx10 t
  funext y
  show V m c main_arg6 (((cfg0.win 10).blk t).view.emb y) = _
  rw [V_main_arg6 m c]
  refine congrArg _ (funext fun a => Fin.ext ?_)
  match a with
  | ⟨0, _⟩ => show win0_10.index t (0 : Fin 1) * 17 + 1 * (y 0).val = (y 0).val; omega
theorem blk11 (c : Dev nD) (t : Fin cfg0.N) : iblk m c 11 t = extractStridedSlice S17x1 ![0, 0] (m ((c : Thread nD τ).loc main_arg7)) slices_S85x1_S17x1_0_0 := by
  obtain ⟨e0, e1⟩ := idx11 t
  funext y
  show V m c main_v6 (((cfg0.win 11).blk t).view.emb y) = _
  rw [V_main_v6 m c]
  refine congrArg _ (funext fun a => Fin.ext ?_)
  match a with
  | ⟨0, _⟩ => show win0_11.index t (0 : Fin 2) * 17 + 1 * (y 0).val = (y 0).val; omega
  | ⟨1, _⟩ => show win0_11.index t (1 : Fin 2) * 1 + 1 * (y 1).val = (y 1).val; omega
theorem blk12 (c : Dev nD) (t : Fin cfg0.N) : iblk m c 12 t = extractStridedSlice S17x1 ![17, 0] (m ((c : Thread nD τ).loc main_arg7)) slices_S85x1_S17x1_17_0 := by
  obtain ⟨e0, e1⟩ := idx12 t
  funext y
  show V m c main_v7 (((cfg0.win 12).blk t).view.emb y) = _
  rw [V_main_v7 m c]
  refine congrArg _ (funext fun a => Fin.ext ?_)
  match a with
  | ⟨0, _⟩ => show win0_12.index t (0 : Fin 2) * 17 + 1 * (y 0).val = (y 0).val; omega
  | ⟨1, _⟩ => show win0_12.index t (1 : Fin 2) * 1 + 1 * (y 1).val = (y 1).val; omega
theorem blk13 (c : Dev nD) (t : Fin cfg0.N) : iblk m c 13 t = extractStridedSlice S17x1 ![34, 0] (m ((c : Thread nD τ).loc main_arg7)) slices_S85x1_S17x1_34_0 := by
  obtain ⟨e0, e1⟩ := idx13 t
  funext y
  show V m c main_v8 (((cfg0.win 13).blk t).view.emb y) = _
  rw [V_main_v8 m c]
  refine congrArg _ (funext fun a => Fin.ext ?_)
  match a with
  | ⟨0, _⟩ => show win0_13.index t (0 : Fin 2) * 17 + 1 * (y 0).val = (y 0).val; omega
  | ⟨1, _⟩ => show win0_13.index t (1 : Fin 2) * 1 + 1 * (y 1).val = (y 1).val; omega
theorem blk14 (c : Dev nD) (t : Fin cfg0.N) : iblk m c 14 t = extractStridedSlice S17x1 ![51, 0] (m ((c : Thread nD τ).loc main_arg7)) slices_S85x1_S17x1_51_0 := by
  obtain ⟨e0, e1⟩ := idx14 t
  funext y
  show V m c main_v9 (((cfg0.win 14).blk t).view.emb y) = _
  rw [V_main_v9 m c]
  refine congrArg _ (funext fun a => Fin.ext ?_)
  match a with
  | ⟨0, _⟩ => show win0_14.index t (0 : Fin 2) * 17 + 1 * (y 0).val = (y 0).val; omega
  | ⟨1, _⟩ => show win0_14.index t (1 : Fin 2) * 1 + 1 * (y 1).val = (y 1).val; omega
theorem blk15 (c : Dev nD) (t : Fin cfg0.N) : iblk m c 15 t = extractStridedSlice S17x1 ![68, 0] (m ((c : Thread nD τ).loc main_arg7)) slices_S85x1_S17x1_68_0 := by
  obtain ⟨e0, e1⟩ := idx15 t
  funext y
  show V m c main_v10 (((cfg0.win 15).blk t).view.emb y) = _
  rw [V_main_v10 m c]
  refine congrArg _ (funext fun a => Fin.ext ?_)
  match a with
  | ⟨0, _⟩ => show win0_15.index t (0 : Fin 2) * 17 + 1 * (y 0).val = (y 0).val; omega
  | ⟨1, _⟩ => show win0_15.index t (1 : Fin 2) * 1 + 1 * (y 1).val = (y 1).val; omega
theorem blk16 (c : Dev nD) (t : Fin cfg0.N) : iblk m c 16 t = m ((c : Thread nD τ).loc main_arg8) := by
  have e0 := idx16 t
  funext y
  show V m c main_arg8 (((cfg0.win 16).blk t).view.emb y) = _
  rw [V_main_arg8 m c]
  refine congrArg _ (funext fun a => Fin.ext ?_)
  match a with
  | ⟨0, _⟩ => show win0_16.index t (0 : Fin 1) * 1 + 1 * (y 0).val = (y 0).val; omega

/-! ## The input window's block: rows 2048·t … of the input array -/

/-- Row p of the input block at point t is the input array's row at the same place as row p of the result block. -/
theorem blk0 (c : Dev nD) (t : Fin cfg0.N) (y : S2048x1.Idx) (cc : Fin 5) :
    iblk m c 0 t (ix2 (y 0) cc) = m ((c : Thread nD τ).loc main_arg0) (ix2 ((((cfg0.win 17).blk t).view.emb y) 0) cc) := by
  obtain ⟨e0, e1⟩ := idx0 t
  obtain ⟨f0, f1⟩ := idx17 t
  show V m c main_arg0 (((cfg0.win 0).blk t).view.emb (ix2 (y 0) cc)) = _
  rw [V_main_arg0 m c]
  refine congrArg _ (funext fun a => Fin.ext ?_)
  match a with
  | ⟨0, _⟩ => show win0_0.index t (0 : Fin 2) * 2048 + 1 * (y 0).val = win0_17.index t (0 : Fin 2) * 2048 + 1 * (y 0).val; omega
  | ⟨1, _⟩ => show win0_0.index t (1 : Fin 2) * 5 + 1 * cc.val = cc.val; omega

end Cert.KernelIdeal.Rows

end
-- ==== Proof.KValue.lean ====
/-
  The kernel's result array: row r holds the network of Row.lean on row r of the input array.

  Point t writes back rows 2048·t … 2048·t + 2047: its stored block, row p, is the network on row p of the input
  block, which is row 2048·t + p of the input array, with the parameters read from the whole parameter arrays.  The
  512 blocks tile the result array (row r lies in block r / 2048), so the array ends holding that function everywhere.
-/
import proofs.«165608_j79104707658373_2_alg».proof.Proof.Gen.KernelIdeal.Value
import proofs.«165608_j79104707658373_2_alg».proof.Proof.KBody
import proofs.«165608_j79104707658373_2_alg».proof.Proof.KBlocks

noncomputable section

namespace Cert.KernelIdeal.Rows

open Cert.KernelIdeal Cert.KernelIdeal.Gen Idealize.ShloMosaic Idealize.ShloMosaic.TcCoe Idealize.SL.Sem Idealize.ShloMosaic.ValueIdx Cert.MP
open Idealize.ShloMosaic.Pipeline (Dat)

variable (m : (ℓ : Loc nD τ sig) → Buf (Elt Ideal) ℓ) (ρ : Dev nD → PrngReg)

/-- The result array as one function of the nine argument arrays. -/
def result (c : Dev nD) : S1048576x1.Idx → EReal :=
  G (m ((c : Thread nD τ).loc main_arg0)) (argParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))

/-- What point t writes back is block t of that function. -/
theorem flushed_eq (c : Dev nD) (t : Fin cfg0.N) :
    (dats m 0 c).flushed 17 t = ((cfg0.win 17).blk t).view.read (Elt Ideal) (result m c) := by
  rw [Value.flushed17]
  funext y
  refine (congrFun (body_fn (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)) y).trans ?_
  rw [blk1 m c t, blk2 m c t, blk3 m c t, blk4 m c t, blk5 m c t, blk6 m c t, blk7 m c t, blk8 m c t, blk9 m c t, blk10 m c t,
    blk11 m c t, blk12 m c t, blk13 m c t, blk14 m c t, blk15 m c t, blk16 m c t]
  show net _ (fun cc => iblk m c 0 t (ix2 (y 0) cc))
    = net _ (fun cc => m ((c : Thread nD τ).loc main_arg0) (ix2 ((((cfg0.win 17).blk t).view.emb y) 0) cc))
  exact congrArg (net _) (funext fun cc => blk0 m c t y cc)

/-- An index of the result array is in point t's block iff each coordinate is in the block's range. -/
theorem mem_blk (t : Fin cfg0.N) (i : S1048576x1.Idx) :
    i ∈ ((cfg0.win 17).blk t).view.set ↔ ∀ a : Fin 2, win0_17.index t a * S2048x1.size a ≤ (i a).val ∧ (i a).val < win0_17.index t a * S2048x1.size a + S2048x1.size a := by
  show i ∈ ((View.whole main_v11).slice (win0_17.rect t)).set ↔ _
  rw [View.set_slice_whole, Rect.mem_set_unit]
  exact Iff.rfl

/-- Row r of the result lies in the block of point r / 2048. -/
theorem cover (i : S1048576x1.Idx) : ∃ t : Fin cfg0.N, (cfg0.win 17).flush t = true ∧ i ∈ ((cfg0.win 17).blk t).view.set := by
  have h0 : (i 0).val < 1048576 := (i 0).isLt
  have h1 : (i 1).val < 1 := (i 1).isLt
  have hlt : (i 0).val / 2048 < grid0.N := by rw [N_0]; omega
  obtain ⟨f0, f1⟩ := idx17 ⟨(i 0).val / 2048, hlt⟩
  refine ⟨⟨(i 0).val / 2048, hlt⟩, flush0_17 _, ?_⟩
  rw [mem_blk]
  intro a
  match a with
  | ⟨0, _⟩ =>
    show win0_17.index ⟨(i 0).val / 2048, hlt⟩ (0 : Fin 2) * 2048 ≤ (i 0).val ∧ (i 0).val < win0_17.index ⟨(i 0).val / 2048, hlt⟩ (0 : Fin 2) * 2048 + 2048
    rw [f0]
    show (i 0).val / 2048 * 2048 ≤ (i 0).val ∧ (i 0).val < (i 0).val / 2048 * 2048 + 2048
    omega
  | ⟨1, _⟩ =>
    show win0_17.index ⟨(i 0).val / 2048, hlt⟩ (1 : Fin 2) * 1 ≤ (i 1).val ∧ (i 1).val < win0_17.index ⟨(i 0).val / 2048, hlt⟩ (1 : Fin 2) * 1 + 1
    rw [f1]
    omega

/-- The result array after the run. -/
theorem final (c : Dev nD) : (dats m 0 c).arrAt 17 cfg0.N = result m c :=
  (dats m 0 c).arrAt_eq_of_cover 17 (result m c) (fun t _ => flushed_eq m c t) cover

/-- The kernel's run: the result array ends at `result`, the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Rows

end
-- ==== Proof.RLayers.lean ====
/-
  The reference's operations read one row at a time.

  The reference works on all 1048576 rows at once, with the same row-local operations as the kernel body: the feature
  layer is computed for the five input columns together as a 1048576 × 5 × 17 array and then cut into five
  1048576 × 17 arrays; a product with a weight block is jnp's dot_general, at row r and column j the sum over k of the
  row's entry k times the block's entry (k, j); a bias is broadcast along the rows in two steps.  So each of its
  composed terms, read at row r, is the corresponding function of Row.lean applied to its operands' rows r.
-/
import proofs.«165608_j79104707658373_2_alg».proof.ReferenceIdeal
import proofs.«165608_j79104707658373_2_alg».proof.Proof.Gen.ReferenceIdeal
import proofs.«165608_j79104707658373_2_alg».proof.Proof.Row
import Idealize.ShloMosaic.Lib.ValueIdx
import Idealize.ShloMosaic.Lib.ValueLayout
import Idealize.ShloMosaic.Lib.Pipeline.Value
import Idealize.ShloMosaic.Lib.KernelVsHost
import Idealize.ShloMosaic.Lib.StackMember
import Idealize.ShloMosaic.PureOps.Ideal.Laws

noncomputable section

namespace Cert.ReferenceIdeal.Rows

open Cert.ReferenceIdeal Cert.ReferenceIdeal.Gen Idealize.ShloMosaic Idealize.ShloMosaic.ValueIdx Cert.MP

/-! ## The layout operations and the products at an index -/

/-- jnp's product of an array of rows with a 17 × 17 weight block, at row r and column j. -/
theorem rdot (X : FVec Ideal S1048576x17 .f32) (W : FVec Ideal S17x17 .f32) (r : Fin 1048576) (j : Fin 17) :
    Host.dotGeneral dot_S1048576x17_S17x17_S1048576x17_1_0_0_1_n_n none X W (ix2 r j) = ∑ k : Fin 17, X (ix2 r k) * W (ix2 k j) :=
  StackMember.dotGeneral_plain_apply none X W r j

/-- jnp's product with a 17 × 1 readout column, at row r. -/
theorem rdot1 (X : FVec Ideal S1048576x17 .f32) (W : FVec Ideal S17x1 .f32) (r : Fin 1048576) (q : Fin 1) :
    Host.dotGeneral dot_S1048576x17_S17x1_S1048576x1_1_0_0_1_n_n none X W (ix2 r q) = ∑ k : Fin 17, X (ix2 r k) * W (ix2 k q) :=
  StackMember.dotGeneral_plain_apply none X W r q

/-- A 17-vector made a one-row matrix and laid along every row. -/
theorem biasRow (b : FVec Ideal S17 .f32) (r : Fin 1048576) (j : Fin 17) :
    broadcastInDim S1048576x17 ![0, 1] bcast_S1x17_S1048576x17_0_1 (broadcastInDim S1x17 ![1] bcast_S17_S1x17_1 b) (ix2 r j) = b (ix1 j) := by
  rw [broadcastInDim_oneRow_apply]
  refine broadcastInDim_apply ![1] bcast_S17_S1x17_1 b (ix2 (0 : Fin 1) j) (ix1 j) fun ax => ?_
  match ax with
  | ⟨0, _⟩ => rfl

/-- The one entry of a 1-vector laid along the one output column. -/
theorem scalarBcast (v : FVec Ideal S1 .f32) (r : Fin 1048576) (q : Fin 1) :
    broadcastInDim S1048576x1 ![0, 1] bcast_S1x1_S1048576x1_0_1 (broadcastInDim S1x1 ![1] bcast_S1_S1x1_1 v) (ix2 r q) = v (ix1 (0 : Fin 1)) := by
  rw [broadcastInDim_oneRow_apply]
  refine broadcastInDim_apply ![1] bcast_S1_S1x1_1 v (ix2 (0 : Fin 1) q) (ix1 (0 : Fin 1)) fun ax => ?_
  match ax with
  | ⟨0, _⟩ => rfl

/-- The zero constant broadcast to every entry. -/
theorem zeros_at (i : S1048576x17.Idx) :
    broadcastInDim S1048576x17 ![] bcast_S_S1048576x17 (constant (F := Ideal) S_ .f32 0x00000000#32) i = 0 := by
  rw [broadcastInDim_apply ![] bcast_S_S1048576x17 _ i ix0 (fun a => a.elim0)]
  exact Ideal.ofBits_zero_f32

/-- The input array, given a unit third axis and repeated along seventeen columns. -/
theorem inputBcast (A0 : FVec Ideal S1048576x5 .f32) (r : Fin 1048576) (c : Fin 5) (j : Fin 17) :
    broadcastInDim S1048576x5x17 ![0, 1, 2] bcast_S1048576x5x1_S1048576x5x17_0_1_2
        (broadcastInDim S1048576x5x1 ![0, 1] bcast_S1048576x5_S1048576x5x1_0_1 A0) (ix3 r c j) = A0 (ix2 r c) := by
  rw [broadcastInDim_apply ![0, 1, 2] bcast_S1048576x5x1_S1048576x5x17_0_1_2 _ (ix3 r c j) (ix3 r c (0 : Fin 1)) (fun ax => by
    match ax with
    | ⟨0, _⟩ => rfl
    | ⟨1, _⟩ => rfl
    | ⟨2, _⟩ => rfl)]
  refine broadcastInDim_apply ![0, 1] bcast_S1048576x5_S1048576x5x1_0_1 A0 (ix3 r c (0 : Fin 1)) (ix2 r c) fun ax => ?_
  match ax with
  | ⟨0, _⟩ => rfl
  | ⟨1, _⟩ => rfl

/-- A 17-vector put on the third axis and repeated over all rows and the five input columns. -/
theorem vecBcast (v : FVec Ideal S17 .f32) (r : Fin 1048576) (c : Fin 5) (j : Fin 17) :
    broadcastInDim S1048576x5x17 ![0, 1, 2] bcast_S1x1x17_S1048576x5x17_0_1_2 (broadcastInDim S1x1x17 ![2] bcast_S17_S1x1x17_2 v) (ix3 r c j)
      = v (ix1 j) := by
  rw [broadcastInDim_apply ![0, 1, 2] bcast_S1x1x17_S1048576x5x17_0_1_2 _ (ix3 r c j) (ix3 (0 : Fin 1) (0 : Fin 1) j) (fun ax => by
    match ax with
    | ⟨0, _⟩ => rfl
    | ⟨1, _⟩ => rfl
    | ⟨2, _⟩ => rfl)]
  refine broadcastInDim_apply ![2] bcast_S17_S1x1x17_2 v (ix3 (0 : Fin 1) (0 : Fin 1) j) (ix1 j) fun ax => ?_
  match ax with
  | ⟨0, _⟩ => rfl

/-- Dropping the unit middle axis of a 1048576 × 1 × 17 array. -/
theorem dropMid (X : FVec Ideal S1048576x1x17 .f32) (r : Fin 1048576) (j : Fin 17) :
    shapeCast S1048576x17 X shapeCasts_S1048576x1x17_S1048576x17 (ix2 r j) = X (ix3 r (0 : Fin 1) j) :=
  shapeCast_apply X _ _ _ (by
    rw [Shape.rowMajor_val_three, Shape.rowMajor_val_two]
    show (r.val * 1 + 0) * 17 + j.val = r.val * 17 + j.val
    omega)

/-! ## The reference's layers at a row -/

local notation "hm" => Host.dotGeneral dot_S1048576x17_S17x17_S1048576x17_1_0_0_1_n_n none
local notation "hm1" => Host.dotGeneral dot_S1048576x17_S17x1_S1048576x1_1_0_0_1_n_n none
local notation "hbias" b => broadcastInDim S1048576x17 ![0, 1] bcast_S1x17_S1048576x17_0_1 (broadcastInDim S1x17 ![1] bcast_S17_S1x17_1 b)

theorem hm_row (X : FVec Ideal S1048576x17 .f32) (W : FVec Ideal S17x17 .f32) (r : Fin 1048576) :
    row (hm X W) r = lin (mat W) (row X r) := funext fun j => rdot X W r j

theorem hm1_at (X : FVec Ideal S1048576x17 .f32) (W : FVec Ideal S17x1 .f32) (r : Fin 1048576) :
    hm1 X W (ix2 r (0 : Fin 1)) = dot (col W) (row X r) := rdot1 X W r 0

theorem hbias_row (b : FVec Ideal S17 .f32) (r : Fin 1048576) : row (hbias b) r = vec b := funext fun j => biasRow b r j

theorem addf_row (X Y : FVec Ideal S1048576x17 .f32) (r : Fin 1048576) : row (addf X Y) r = fun j => row X r j + row Y r j := rfl

theorem tanh_row (X : FVec Ideal S1048576x17 .f32) (r : Fin 1048576) : row (Host.tanh X) r = fun j => Ideal.tanh (row X r j) := rfl

/-- The zero array's rows are zero. -/
theorem zeros_row (r : Fin 1048576) :
    row (broadcastInDim S1048576x17 ![] bcast_S_S1048576x17 (constant (F := Ideal) S_ .f32 0x00000000#32)) r = fun _ => 0 :=
  funext fun _ => zeros_at _

/-- Input column c's feature array at row r: tanh (x · w_f + b_f) of the row's entry c. -/
theorem feat_row (A0 : FVec Ideal S1048576x5 .f32) (A1 : FVec Ideal S1x17 .f32) (A2 : FVec Ideal S17 .f32) (o : Nat) (c : Fin 5) (hc : c.val = o)
    (hs : S1048576x5x17.Slices ![0, o, 0] S1048576x1x17) (r : Fin 1048576) :
    row (shapeCast S1048576x17 (extractStridedSlice S1048576x1x17 ![0, o, 0]
      (Host.tanh (addf (mulf
          (broadcastInDim S1048576x5x17 ![0, 1, 2] bcast_S1048576x5x1_S1048576x5x17_0_1_2 (broadcastInDim S1048576x5x1 ![0, 1] bcast_S1048576x5_S1048576x5x1_0_1 A0))
          (broadcastInDim S1048576x5x17 ![0, 1, 2] bcast_S1x1x17_S1048576x5x17_0_1_2 (broadcastInDim S1x1x17 ![2] bcast_S17_S1x1x17_2 (shapeCast S17 A1 shapeCasts_S1x17_S17))))
        (broadcastInDim S1048576x5x17 ![0, 1, 2] bcast_S1x1x17_S1048576x5x17_0_1_2 (broadcastInDim S1x1x17 ![2] bcast_S17_S1x1x17_2 A2)))) hs)
      shapeCasts_S1048576x1x17_S1048576x17) r
    = feat (row0 A1) (vec A2) (A0 (ix2 r c)) := by
  funext j
  show shapeCast S1048576x17 _ shapeCasts_S1048576x1x17_S1048576x17 (ix2 r j) = _
  rw [dropMid, slice3_axis1_apply o _ hs r (0 : Fin 1) j c (by rw [hc]; rfl)]
  show Ideal.tanh (broadcastInDim S1048576x5x17 ![0, 1, 2] bcast_S1048576x5x1_S1048576x5x17_0_1_2 (broadcastInDim S1048576x5x1 ![0, 1] bcast_S1048576x5_S1048576x5x1_0_1 A0) (ix3 r c j)
      * broadcastInDim S1048576x5x17 ![0, 1, 2] bcast_S1x1x17_S1048576x5x17_0_1_2 (broadcastInDim S1x1x17 ![2] bcast_S17_S1x1x17_2 (shapeCast S17 A1 shapeCasts_S1x17_S17)) (ix3 r c j)
      + broadcastInDim S1048576x5x17 ![0, 1, 2] bcast_S1x1x17_S1048576x5x17_0_1_2 (broadcastInDim S1x1x17 ![2] bcast_S17_S1x1x17_2 A2) (ix3 r c j)) = _
  rw [inputBcast, vecBcast, vecBcast, shapeCast_1a_a_apply]
  rfl

/-- The message layer at row r. -/
theorem msg_row (X Y : FVec Ideal S1048576x17 .f32) (W1 W2 : FVec Ideal S17x17 .f32) (b : FVec Ideal S17 .f32) (r : Fin 1048576) :
    row (Host.tanh (addf (addf (hm X W1) (hm Y W2)) (hbias b))) r = msg (mat W1) (mat W2) (vec b) (row X r) (row Y r) := by
  rw [tanh_row, addf_row, addf_row, hm_row, hm_row, hbias_row]
  rfl

/-- The update layer at row r. -/
theorem upd_row (M1 M2 U Fe : FVec Ideal S1048576x17 .f32) (W1 W2 W3 W4 : FVec Ideal S17x17 .f32) (b : FVec Ideal S17 .f32) (r : Fin 1048576) :
    row (Host.tanh (addf (addf (addf (addf (hm M1 W1) (hm M2 W2)) (hm U W3)) (hm Fe W4)) (hbias b))) r
      = upd (mat W1) (mat W2) (mat W3) (mat W4) (vec b) (row M1 r) (row M2 r) (row U r) (row Fe r) := by
  rw [tanh_row, addf_row, addf_row, addf_row, addf_row, hm_row, hm_row, hm_row, hm_row, hbias_row]
  rfl

/-- The readout at row r. -/
theorem readout_at (U1 U2 U3 U4 U5 : FVec Ideal S1048576x17 .f32) (r1 r2 r3 r4 r5 : FVec Ideal S17x1 .f32) (br : FVec Ideal S1 .f32)
    (r : Fin 1048576) (q : Fin 1) :
    addf (addf (addf (addf (addf (hm1 U1 r1) (hm1 U2 r2)) (hm1 U3 r3)) (hm1 U4 r4)) (hm1 U5 r5))
        (broadcastInDim S1048576x1 ![0, 1] bcast_S1x1_S1048576x1_0_1 (broadcastInDim S1x1 ![1] bcast_S1_S1x1_1 br)) (ix2 r q)
      = dot (col r1) (row U1 r) + dot (col r2) (row U2 r) + dot (col r3) (row U3 r) + dot (col r4) (row U4 r)
        + dot (col r5) (row U5 r) + br (ix1 (0 : Fin 1)) := by
  obtain rfl : q = 0 := Subsingleton.elim _ _
  show hm1 U1 r1 (ix2 r 0) + hm1 U2 r2 (ix2 r 0) + hm1 U3 r3 (ix2 r 0) + hm1 U4 r4 (ix2 r 0) + hm1 U5 r5 (ix2 r 0)
      + broadcastInDim S1048576x1 ![0, 1] bcast_S1x1_S1048576x1_0_1 (broadcastInDim S1x1 ![1] bcast_S1_S1x1_1 br) (ix2 r 0) = _
  rw [hm1_at, hm1_at, hm1_at, hm1_at, hm1_at, scalarBcast]

end Cert.ReferenceIdeal.Rows

end
-- ==== Proof.RValue.lean ====
/-
  What the reference returns: at row r, the network of Row.lean on row r of the input array, with the parameters cut
  out of the eight parameter arrays.

  The reference's composed term is read from the outside in: the readout sum at row r is five inner products plus
  the bias; each of the five updated arrays, at row r, is the update of its two message arrays, its state and its
  features at row r; each message array the message of two feature arrays; each feature array the feature layer of one
  input column.  The fifth node's two messages are the zero array, whose products with the weights vanish, so its
  update is the message-free one.
-/
import proofs.«165608_j79104707658373_2_alg».proof.Proof.Gen.ReferenceIdeal.Run
import proofs.«165608_j79104707658373_2_alg».proof.Proof.RLayers

noncomputable section

namespace Cert.ReferenceIdeal.Rows

open Cert.ReferenceIdeal Cert.ReferenceIdeal.Gen Cert.ReferenceIdeal.Value Idealize.ShloMosaic Idealize.ShloMosaic.ValueIdx
open Idealize.ShloMosaic.StableHlo Idealize.ShloMosaic.TcCoe Idealize.SL.Sem Cert.MP

variable (V0 : Valuation τ sig (Elt Ideal))

/-- The five feature arrays at a row. -/
theorem featA_row (r : Fin 1048576) : row (res_main_v11 V0) r
    = feat (row0 (V0 (Proc.devRef .tc main_arg1))) (vec (V0 (Proc.devRef .tc main_arg2))) (V0 (Proc.devRef .tc main_arg0) (ix2 r 0)) :=
  feat_row _ _ _ 0 0 rfl _ r
theorem featB_row (r : Fin 1048576) : row (res_main_v13 V0) r
    = feat (row0 (V0 (Proc.devRef .tc main_arg1))) (vec (V0 (Proc.devRef .tc main_arg2))) (V0 (Proc.devRef .tc main_arg0) (ix2 r 1)) :=
  feat_row _ _ _ 1 1 rfl _ r
theorem featC_row (r : Fin 1048576) : row (res_main_v15 V0) r
    = feat (row0 (V0 (Proc.devRef .tc main_arg1))) (vec (V0 (Proc.devRef .tc main_arg2))) (V0 (Proc.devRef .tc main_arg0) (ix2 r 2)) :=
  feat_row _ _ _ 2 2 rfl _ r
theorem featD_row (r : Fin 1048576) : row (res_main_v17 V0) r
    = feat (row0 (V0 (Proc.devRef .tc main_arg1))) (vec (V0 (Proc.devRef .tc main_arg2))) (V0 (Proc.devRef .tc main_arg0) (ix2 r 3)) :=
  feat_row _ _ _ 3 3 rfl _ r
theorem featE_row (r : Fin 1048576) : row (res_main_v19 V0) r
    = feat (row0 (V0 (Proc.devRef .tc main_arg1))) (vec (V0 (Proc.devRef .tc main_arg2))) (V0 (Proc.devRef .tc main_arg0) (ix2 r 4)) :=
  feat_row _ _ _ 4 4 rfl _ r

/-- The zero message array at a row. -/
theorem zero_row (r : Fin 1048576) : row (res_main_v92 V0) r = fun _ => 0 := zeros_row r

/-- The reference's result at row r. -/
theorem result_at (r : Fin 1048576) (q : Fin 1) :
    val4 V0 (no_index (Proc.devRef .tc main_v184)) (ix2 r q)
      = net (argParams (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6))
          (V0 (Proc.devRef .tc main_arg7)) (V0 (Proc.devRef .tc main_arg8)))
        (fun c => V0 (Proc.devRef .tc main_arg0) (ix2 r c)) := by
  rw [val4_main_v184]
  refine (readout_at _ _ _ _ _ _ _ _ _ _ _ r q).trans ?_
  rw [upd_row, upd_row, upd_row, upd_row, upd_row]
  rw [msg_row, msg_row, msg_row, msg_row, msg_row, msg_row, msg_row, msg_row]
  rw [featA_row, featB_row, featC_row, featD_row, featE_row, zero_row, upd_zero]
  rfl

/-- The reference's result array is the network, row by row. -/
theorem result_eq : val4 V0 (no_index (Proc.devRef .tc main_v184))
    = G (V0 (Proc.devRef .tc main_arg0)) (argParams (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) := by
  funext i
  obtain ⟨r, q, rfl⟩ : ∃ (r : Fin 1048576) (q : Fin 1), i = ix2 r q := ⟨i 0, i 1, eq_ix2 i⟩
  exact result_at V0 r q

/-- The result array as one function of the nine argument arrays. -/
def result (m : (ℓ : Loc nD τ sig) → Buf (Elt Ideal) ℓ) (c : Dev nD) : S1048576x1.Idx → EReal :=
  G (m ((c.tc : Thread nD τ).loc main_arg0)) (argParams (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))

/-- The reference's run: the result array ends at `result`, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v184) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans
      ((val4_main_v184 (launchContents m c)).symm.trans (result_eq (launchContents m c))), (h c).2⟩)
    (Value.run (F := Ideal) m ρ)

end Cert.ReferenceIdeal.Rows

end
-- ==== Proof.lean ====
/-
  The certificate of a message-passing network on five nodes, computed row by row over 1048576 rows.

  The kernel works on 2048 rows at a grid point, the reference on all rows at once; both apply, to every row by
  itself, the network of Proof/Row.lean: five feature vectors tanh (xᵢ · w_f + b_f), eight messages along the ring
  a – b – c – d – a, five updates, a readout.  The kernel cuts the stacked weight arrays into 17-row blocks on the
  host before the launch and rounds its matrix operands to bf16, which changes nothing on the extended reals; the
  reference cuts the same blocks where it uses them.  The only difference left is the fifth node, which receives no
  message: the reference multiplies two zero arrays into the first two weight blocks, the kernel leaves those two
  products out, and a product with the zero array is the zero array.

  Proof/KLayers.lean, KBody.lean, KBlocks.lean and KValue.lean read the kernel's result array as that network of the
  argument arrays; Proof/RLayers.lean and RValue.lean read the reference's result array as the same function.  No
  step uses that the inputs are finite: the network's sums are taken in one order on both sides, and 0 · x = 0 holds
  for every extended real.
-/
import proofs.«165608_j79104707658373_2_alg».proof.Defs
import proofs.«165608_j79104707658373_2_alg».proof.Proof.Gen.Kernel
import proofs.«165608_j79104707658373_2_alg».proof.Proof.Gen.Kernel.Frame
import proofs.«165608_j79104707658373_2_alg».proof.Proof.Gen.KernelIdeal
import proofs.«165608_j79104707658373_2_alg».proof.Proof.Gen.KernelIdeal.Frame
import proofs.«165608_j79104707658373_2_alg».proof.Proof.Gen.KernelIdeal.Value
import proofs.«165608_j79104707658373_2_alg».proof.Proof.Gen.ReferenceIdeal
import proofs.«165608_j79104707658373_2_alg».proof.Proof.Gen.ReferenceIdeal.Run
import proofs.«165608_j79104707658373_2_alg».proof.Proof.Gen.Pre_finite_inputs
import proofs.«165608_j79104707658373_2_alg».proof.Proof.KValue
import proofs.«165608_j79104707658373_2_alg».proof.Proof.RValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments the two programs end with the same result array: the network
    of the argument arrays, row by row. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Rows.run m' ρ')
  obtain ⟨h0, h1, h2, h3, h4, h5, h6, h7, h8⟩ := hagree c
  unfold Cert.ReferenceIdeal.Rows.result Cert.KernelIdeal.Rows.result
  rw [h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
